-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x3200000 : Shape := ⟨2, ![2, 3200000]⟩
abbrev S48x16 : Shape := ⟨2, ![48, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S16x16 .f32) (main_arg9 : FVec F S16 .f32) (main_arg10 : FVec F S16x1 .f32) (main_arg11 : FVec F S1 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S16 .f32) (main_arg6 : FVec F S16x16 .f32) (main_arg7 : FVec F S16 .f32) (main_arg8 : FVec F S16x16 .f32) (main_arg9 : FVec F S16 .f32) (main_arg10 : FVec F S16x1 .f32) (main_arg11 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x48 .f32) (main_arg1 : IVec S2x3200000 32) (main_arg2 : FVec F S48x16 .f32) (main_arg3 : FVec F S16 .f32) (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S16x1 .f32) (main_arg11 : FVec F S1 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x16 .f32 := Host.absf main_arg2
  let main_cst_0 : FVec F S_ .f32 := constant S_ .f32 0x7F800000#32
  let main_v5 : FVec F S48x16 .f32 := broadcastInDim S48x16 ![] bcast_S_S48x16 main_cst_0
  let main_v6 : IVec S48x16 1 := cmpf .olt main_v4 main_v5
  let main_c_1 : IVec S_ 1 := constantI S_ 1 1#1
  let main_v7 : IVec S_ 1 := (fun x v => Host.reduce IntOp.andi x v reducesTo_S48x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_v13 main_v16
-- ==== Kernel.lean ====
abbrev S100000x48 : Shape := ⟨2, ![100000, 48]⟩
abbrev S2x3200000 : Shape := ⟨2, ![2, 3200000]⟩
abbrev S48x16 : Shape := ⟨2, ![48, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S48 : Shape := ⟨1, ![48]⟩
abbrev S1x48 : Shape := ⟨2, ![1, 48]⟩
abbrev S100000x16 : Shape := ⟨2, ![100000, 16]⟩
abbrev S10000x48 : Shape := ⟨2, ![10000, 48]⟩
abbrev S10000x16 : Shape := ⟨2, ![10000, 16]⟩
abbrev S3300000x16 : Shape := ⟨2, ![3300000, 16]⟩
abbrev S1x16 : Shape := ⟨2, ![1, 16]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 127
  | .vmem => 31
  | .smem => 0
  | _ => 0

abbrev bufTy : (tb : Table) → Fin (tcTables nBuf tb) → BufTy
  | .hbm, ⟨0, _⟩ => ⟨S100000x48, .f32⟩
  | .hbm, ⟨1, _⟩ => ⟨S2x3200000, .i32⟩
  | .hbm, ⟨2, _⟩ => ⟨S48x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000, .i32⟩
  | .hbm, ⟨17, _⟩ => ⟨S3300000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S3300000x1, .f32⟩
  | .hbm, ⟨53, _⟩ => ⟨S_, .f32⟩
  | .hbm, ⟨54, _⟩ => ⟨S48, .f32⟩
  | .hbm, ⟨55, _⟩ => ⟨S1x48, .f32⟩
  | .hbm, ⟨56, _⟩ => ⟨S100000x16, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x16, .f32⟩
  | .hbm, ⟨66, _⟩ => ⟨S3300000x16, .f32⟩
  | .hbm, ⟨67, _⟩ => ⟨S3300000x16, .f32⟩
  | .hbm, ⟨68, _⟩ => ⟨S_, .f32⟩
  | .hbm, ⟨69, _⟩ => ⟨S100000x16, .f32⟩
  | .hbm, ⟨70, _⟩ => ⟨S3300000x1, .i32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x16, .f32⟩
  | .hbm, ⟨83, _⟩ => ⟨S3300000x16, .f32⟩
  | .hbm, ⟨84, _⟩ => ⟨S3300000x16, .f32⟩
  | .hbm, ⟨85, _⟩ => ⟨S_, .f32⟩
  | .hbm, ⟨86, _⟩ => ⟨S100000x16, .f32⟩
  | .hbm, ⟨87, _⟩ => ⟨S3300000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S3300000x16, .f32⟩
  | .hbm, ⟨100, _⟩ => ⟨S3300000x16, .f32⟩
  | .hbm, ⟨101, _⟩ => ⟨S3300000x16, .f32⟩
  | .hbm, ⟨102, _⟩ => ⟨S_, .f32⟩
  | .hbm, ⟨103, _⟩ => ⟨S100000x16, .f32⟩
  | .hbm, ⟨104, _⟩ => ⟨S3300000x1, .i32⟩
  | .hbm, ⟨105, _⟩ => ⟨S100000x16, .f32⟩
  | .hbm, ⟨106, _⟩ => ⟨S1x16, .f32⟩
  | .hbm, ⟨107, _⟩ => ⟨S100000x16, .f32⟩
  | .hbm, ⟨108, _⟩ => ⟨S_, .i32⟩
  | .hbm, ⟨109, _⟩ => ⟨S3300000, .i32⟩
  | .hbm, ⟨110, _⟩ => ⟨S3300000, .i1⟩
  | .hbm, ⟨111, _⟩ => ⟨S_, .i32⟩
  | .hbm, ⟨112, _⟩ => ⟨S3300000, .i32⟩
  | .hbm, ⟨113, _⟩ => ⟨S3300000, .i32⟩
  | .hbm, ⟨114, _⟩ => ⟨S3300000, .i32⟩
  | .hbm, ⟨115, _⟩ => ⟨S3300000x1, .i32⟩
  | .hbm, ⟨116, _⟩ => ⟨S3300000x16, .f32⟩
  | .hbm, ⟨117, _⟩ => ⟨S3300000x16, .f32⟩
  | .hbm, ⟨118, _⟩ => ⟨S3300000x16, .f32⟩
  | .hbm, ⟨119, _⟩ => ⟨S_, .f32⟩
  | .hbm, ⟨120, _⟩ => ⟨S100000x16, .f32⟩
  | .hbm, ⟨121, _⟩ => ⟨S3300000x1, .i32⟩
  | .hbm, ⟨122, _⟩ => ⟨S100000x16, .f32⟩
  | .hbm, ⟨123, _⟩ => ⟨S1x16, .f32⟩
  | .hbm, ⟨124, _⟩ => ⟨S1x1, .f32⟩
  | .hbm, ⟨125, _⟩ => ⟨S100000x1, .f32⟩
  | .hbm, ⟨126, _⟩ => ⟨S100000, .f32⟩
  | .local _ .vmem, ⟨0, _⟩ => ⟨S10000x48, .f32⟩
  | .local _ .vmem, ⟨1, _⟩ => ⟨S10000x48, .f32⟩
  | .local _ .vmem, ⟨2, _⟩ => ⟨S1x48, .f32⟩
  | .local _ .vmem, ⟨3, _⟩ => ⟨S48x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S1x16, .f32⟩
  | .local _ .vmem, ⟨9, _⟩ => ⟨S16x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S1x16, .f32⟩
  | .local _ .vmem, ⟨15, _⟩ => ⟨S16x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S1x16, .f32⟩
  | .local _ .vmem, ⟨21, _⟩ => ⟨S16x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S1x16, .f32⟩
  | .local _ .vmem, ⟨27, _⟩ => ⟨S16x1, .f32⟩
  | .local _ .vmem, ⟨28, _⟩ => ⟨S1x1, .f32⟩
  | .local _ .vmem, ⟨29, _⟩ => ⟨S10000x1, .f32⟩
  | .local _ .vmem, ⟨30, _⟩ => ⟨S10000x1, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S48 : S_.BroadcastsInDim S48 (![] : Fin 0 → Fin S48.rank)
  shapeCasts_S48_S1x48 : S48.ShapeCasts S1x48
  inb_S10000x48_S10000x48_0_0 : ∀ a, (![0, 0] : Fin 2 → Nat) a + S10000x48.size a ≤ S10000x48.size a
  h_S10000x48 : 0 < S10000x48.numel
  bitsLt_bf16_f32 : FTy.bits .bf16 < FTy.bits .f32
  inb_S48x16_S48x16_0_0 : ∀ a, (![0, 0] : Fin 2 → Nat) a + S48x16.size a ≤ S48x16.size a
  h_S48x16 : 0 < S48x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x48_S48x16_S10000x16_1_0_0_1_n_n_wf : DotDims.WF S10000x48 S48x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x48.size a ≤ S100000x48.size a
  hwx0_0 : ∀ i : grid0.Coords, EltTy.bits .f32 = 32 ∨ (Rect.block (s := S100000x48) S10000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x48.size a ≤ S1x48.size a
  hwx0_1 : ∀ i : grid0.Coords, EltTy.bits .f32 = 32 ∨ (Rect.block (s := S1x48) S1x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x16.size a ≤ S48x16.size a
  hwx0_2 : ∀ i : grid0.Coords, EltTy.bits .f32 = 32 ∨ (Rect.block (s := S48x16) S48x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x16.size a ≤ S1x16.size a
  hwx4_1 : ∀ i : grid4.Coords, EltTy.bits .f32 = 32 ∨ (Rect.block (s := S1x16) S1x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x1.size a ≤ S16x1.size a
  hwx4_2 : ∀ i : grid4.Coords, EltTy.bits .f32 = 32 ∨ (Rect.block (s := S16x1) S16x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x1.size a ≤ S100000x1.size a
  hwx4_4 : ∀ i : grid4.Coords, EltTy.bits .f32 = 32 ∨ (Rect.block (s := S100000x1) S10000x1.size (cc4_transform_4 i) (hinb4_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x48_S48x16_S10000x16_1_0_0_1_n_n : DotDims S10000x48 S48x16 S10000x16 where
  lhsContracting := [1]
  rhsContracting := [0]
  lhsNonContracting := [0]
  rhsNonContracting := [1]
  lhsBatch := []
  rhsBatch := []
  wf := dot_S10000x48_S48x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v87) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S16x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S10000x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x48 : Shape := ⟨2, ![100000, 48]⟩
abbrev S2x3200000 : Shape := ⟨2, ![2, 3200000]⟩
abbrev S48x16 : Shape := ⟨2, ![48, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 262
  | .vmem => 0
  | .smem => 0
  | _ => 0

abbrev hbmTy0_0 (i : Nat) : BufTy := match i % 128 with
  | 0 => ⟨S100000x48, .f32⟩
  | 1 => ⟨S2x3200000, .i32⟩
  | 2 => ⟨S48x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S16x1, .f32⟩
  | 11 => ⟨S1, .f32⟩
  | 12 => ⟨S1x3200000, .i32⟩
  | 13 => ⟨S3200000, .i32⟩
  | 14 => ⟨S1x3200000, .i32⟩
  | 15 => ⟨S3200000, .i32⟩
  | 16 => ⟨S100000x16, .f32⟩
  | 17 => ⟨S100000, .i32⟩
  | 18 => ⟨S3300000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x16, .f32⟩
  | 62 => ⟨S3300000x1, .f32⟩
  | 63 => ⟨S3300000x16, .f32⟩
  | 64 => ⟨S3300000x16, .f32⟩
  | 65 => ⟨S_, .f32⟩
  | 66 => ⟨S100000x16, .f32⟩
  | 67 => ⟨S3300000x1, .i32⟩
  | 68 => ⟨S100000x16, .f32⟩
  | 69 => ⟨S1x16, .f32⟩
  | 70 => ⟨S100000x16, .f32⟩
  | 71 => ⟨S100000x16, .f32⟩
  | 72 => ⟨S_, .f32⟩
  | 73 => ⟨S100000x16, .f32⟩
  | 74 => ⟨S100000x16, .f32⟩
  | 75 => ⟨S100000x16, .f32⟩
  | 76 => ⟨S100000, .i32⟩
  | 77 => ⟨S3300000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S3300000, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x16, .f32⟩
  | 121 => ⟨S3300000x1, .f32⟩
  | 122 => ⟨S3300000x16, .f32⟩
  | 123 => ⟨S3300000x16, .f32⟩
  | 124 => ⟨S_, .f32⟩
  | 125 => ⟨S100000x16, .f32⟩
  | 126 => ⟨S3300000x1, .i32⟩
  | 127 => ⟨S100000x16, .f32⟩
  | _ => ⟨S100000x48, .f32⟩

abbrev hbmTy0_1 (i : Nat) : BufTy := match i % 128 with
  | 0 => ⟨S1x16, .f32⟩
  | 1 => ⟨S100000x16, .f32⟩
  | 2 => ⟨S100000x16, .f32⟩
  | 3 => ⟨S_, .f32⟩
  | 4 => ⟨S100000x16, .f32⟩
  | 5 => ⟨S100000x16, .f32⟩
  | 6 => ⟨S100000x16, .f32⟩
  | 7 => ⟨S100000, .i32⟩
  | 8 => ⟨S3300000, .i32⟩
  | 9 => ⟨S3300000, .i32⟩
  | 10 => ⟨S_, .f32⟩
  | 11 => ⟨S3300000, .f32⟩
  | 12 => ⟨S_, .f32⟩
  | 13 => ⟨S100000, .f32⟩
  | 14 => ⟨S3300000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000x16, .f32⟩
  | 52 => ⟨S3300000x1, .f32⟩
  | 53 => ⟨S3300000x16, .f32⟩
  | 54 => ⟨S3300000x16, .f32⟩
  | 55 => ⟨S_, .f32⟩
  | 56 => ⟨S100000x16, .f32⟩
  | 57 => ⟨S3300000x1, .i32⟩
  | 58 => ⟨S100000x16, .f32⟩
  | 59 => ⟨S1x16, .f32⟩
  | 60 => ⟨S100000x16, .f32⟩
  | 61 => ⟨S100000x16, .f32⟩
  | 62 => ⟨S_, .f32⟩
  | 63 => ⟨S100000x16, .f32⟩
  | 64 => ⟨S100000x16, .f32⟩
  | 65 => ⟨S100000x16, .f32⟩
  | 66 => ⟨S100000, .i32⟩
  | 67 => ⟨S3300000, .i32⟩
  | 68 => ⟨S3300000, .i32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x16, .f32⟩
  | 111 => ⟨S3300000x1, .f32⟩
  | 112 => ⟨S3300000x16, .f32⟩
  | 113 => ⟨S3300000x16, .f32⟩
  | 114 => ⟨S_, .f32⟩
  | 115 => ⟨S100000x16, .f32⟩
  | 116 => ⟨S3300000x1, .i32⟩
  | 117 => ⟨S100000x16, .f32⟩
  | 118 => ⟨S1x16, .f32⟩
  | 119 => ⟨S100000x16, .f32⟩
  | 120 => ⟨S100000x16, .f32⟩
  | 121 => ⟨S100000x1, .f32⟩
  | 122 => ⟨S1x1, .f32⟩
  | 123 => ⟨S100000x1, .f32⟩
  | 124 => ⟨S100000x1, .f32⟩
  | 125 => ⟨S100000, .f32⟩
  | 126 => ⟨S100000, .f32⟩
  | 127 => ⟨S100000, .f32⟩
  | _ => ⟨S100000x48, .f32⟩

abbrev hbmTy0_2 (i : Nat) : BufTy := match i % 128 with
  | 0 => ⟨S_, .f32⟩
  | 1 => ⟨S100000, .f32⟩
  | 2 => ⟨S100000, .f32⟩
  | 3 => ⟨S_, .f32⟩
  | 4 => ⟨S100000, .f32⟩
  | 5 => ⟨S100000, .f32⟩
  | _ => ⟨S100000x48, .f32⟩

abbrev hbmTy (i : Nat) : BufTy := match i / 128 with
  | 0 => hbmTy0_0 i
  | 1 => hbmTy0_1 i
  | 2 => hbmTy0_2 i
  | _ => ⟨S100000x48, .f32⟩

abbrev bufTy : (tb : Table) → Fin (tcTables nBuf tb) → BufTy
  | .hbm, ⟨i, _⟩ => hbmTy i
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_call3_cst : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_call4_v0 : Ref sig .tc := ⟨.hbm, 149, rfl⟩
abbrev main_call4_v1 : Ref sig .tc := ⟨.hbm, 150, rfl⟩
abbrev main_v103 : Ref sig .tc := ⟨.hbm, 151, rfl⟩
abbrev main_c_24 : Ref sig .tc := ⟨.hbm, 152, rfl⟩
abbrev main_v104 : Ref sig .tc := ⟨.hbm, 153, rfl⟩
abbrev main_v105 : Ref sig .tc := ⟨.hbm, 154, rfl⟩
abbrev main_c_25 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_26 : Ref sig .tc := ⟨.hbm, 161, rfl⟩
abbrev main_v111 : Ref sig .tc := ⟨.hbm, 162, rfl⟩
abbrev main_v112 : Ref sig .tc := ⟨.hbm, 163, rfl⟩
abbrev main_c_27 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_28 : Ref sig .tc := ⟨.hbm, 171, rfl⟩
abbrev main_v119 : Ref sig .tc := ⟨.hbm, 172, rfl⟩
abbrev main_v120 : Ref sig .tc := ⟨.hbm, 173, rfl⟩
abbrev main_c_29 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_30 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_call5_cst : Ref sig .tc := ⟨.hbm, 190, rfl⟩
abbrev main_call5_v0 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_31 : Ref sig .tc := ⟨.hbm, 197, rfl⟩
abbrev main_v140 : Ref sig .tc := ⟨.hbm, 198, rfl⟩
abbrev main_cst_32 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_33 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_34 : Ref sig .tc := ⟨.hbm, 207, rfl⟩
abbrev main_call6_v0 : Ref sig .tc := ⟨.hbm, 208, rfl⟩
abbrev main_call6_v1 : Ref sig .tc := ⟨.hbm, 209, rfl⟩
abbrev main_v147 : Ref sig .tc := ⟨.hbm, 210, rfl⟩
abbrev main_c_35 : Ref sig .tc := ⟨.hbm, 211, rfl⟩
abbrev main_v148 : Ref sig .tc := ⟨.hbm, 212, rfl⟩
abbrev main_v149 : Ref sig .tc := ⟨.hbm, 213, rfl⟩
abbrev main_c_36 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_c_37 : Ref sig .tc := ⟨.hbm, 220, rfl⟩
abbrev main_v155 : Ref sig .tc := ⟨.hbm, 221, rfl⟩
abbrev main_v156 : Ref sig .tc := ⟨.hbm, 222, rfl⟩
abbrev main_c_38 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_c_39 : Ref sig .tc := ⟨.hbm, 230, rfl⟩
abbrev main_v163 : Ref sig .tc := ⟨.hbm, 231, rfl⟩
abbrev main_v164 : Ref sig .tc := ⟨.hbm, 232, rfl⟩
abbrev main_c_40 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_41 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_42 : Ref sig .tc := ⟨.hbm, 256, rfl⟩
abbrev main_v186 : Ref sig .tc := ⟨.hbm, 257, rfl⟩
abbrev main_v187 : Ref sig .tc := ⟨.hbm, 258, rfl⟩
abbrev main_cst_43 : Ref sig .tc := ⟨.hbm, 259, rfl⟩
abbrev main_v188 : Ref sig .tc := ⟨.hbm, 260, rfl⟩
abbrev main_v189 : Ref sig .tc := ⟨.hbm, 261, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x48_S48x16_S100000x16_1_0_0_1_n_n_wf : DotDims.WF S100000x48 S48x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The whole run of the network's program, with every buffer named.

  The program is thirteen stretches in a row: the graph's preparation, then five kernels with the neighbourhood
  aggregation between them, then one reshape. Run from any memory with zero counters, every weakly fair execution
  terminates without a fault, and each buffer that outlives its kernel ends at the contents obtained by folding the
  stretches over the launch memory one after the other (a host stretch applies its operations; a kernel overwrites its
  result array by what its ten blocks leave and keeps everything else). The theorem below is that statement for ALL
  such buffers at once; the value of the program's result and the fact that the arguments are kept are read off it.
-/
import proofs.«138871_j38113539785257_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that outlives its kernel ends at the
    thirteen stretches' fold of the launch memory. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The same run, read at the program's result and at its twelve arguments: the result ends at the fold's value, the
    arguments as launched. -/
theorem run_result : θ_run defs (onTc (τ := τ) (main (F := F))) ⟨m, fun _ => 0, ρ⟩ (fun r => ∀ c : Dev nD,
      r.2.mem ((c.tc : Thread nD τ).loc main_v91) = W13 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v91 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)
    (run_buffers m ρ)

end Cert.KernelIdeal.Whole

end
-- ==== Proof.Keep.lean ====
/-
  What the program's stretches leave alone.

  The program's memory is followed through thirteen stretches (host operations, kernels) as a fold `W0, W1, …, W13` of
  buffer contents. A host stretch changes only the buffers its operations write; a kernel changes only its result
  array. So a buffer that none of the stretches between two points writes holds at the later point what it held at the
  earlier one. This file records the instances the value proof needs: each argument still holds its launch contents
  when the stretch that reads it begins, and the three graph arrays computed once before the first kernel (all
  messages' sources, their destinations, their weights) are still there when each later aggregation reads them.
-/
import proofs.«138871_j38113539785257_1_alg».proof.Proof.Gen.KernelIdeal.Frame

set_option maxRecDepth 16384

noncomputable section

namespace Cert.KernelIdeal.Whole

open Idealize.ShloMosaic Idealize.ShloMosaic.TcCoe Idealize.SL.Sem
open Cert.KernelIdeal Cert.KernelIdeal.Gen

/-- A buffer that no operation of a host stretch writes is the same after the stretch: the stretch's operations
    are listed, each one's written buffer is compared with the buffer in question. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

/-! ## The arguments, each at the start of the stretch that reads it -/

theorem arg0_at3 : W3 m ρ c (Proc.devRef .tc main_arg0) = m ((c : Thread nD τ).loc main_arg0) :=
  ((by host_keeps hostOps0_2 : W3 m ρ c (Proc.devRef .tc main_arg0) = W2 m ρ c (Proc.devRef .tc main_arg0))).trans (((by host_keeps hostOps0_1 : W2 m ρ c (Proc.devRef .tc main_arg0) = W1 m ρ c (Proc.devRef .tc main_arg0))).trans (((by host_keeps hostOps0 : W1 m ρ c (Proc.devRef .tc main_arg0) = W0 m ρ c (Proc.devRef .tc main_arg0))).trans (rfl)))
theorem arg2_at3 : W3 m ρ c (Proc.devRef .tc main_arg2) = m ((c : Thread nD τ).loc main_arg2) :=
  ((by host_keeps hostOps0_2 : W3 m ρ c (Proc.devRef .tc main_arg2) = W2 m ρ c (Proc.devRef .tc main_arg2))).trans (((by host_keeps hostOps0_1 : W2 m ρ c (Proc.devRef .tc main_arg2) = W1 m ρ c (Proc.devRef .tc main_arg2))).trans (((by host_keeps hostOps0 : W1 m ρ c (Proc.devRef .tc main_arg2) = W0 m ρ c (Proc.devRef .tc main_arg2))).trans (rfl)))
theorem arg3_at4 : W4 m ρ c (Proc.devRef .tc main_arg3) = m ((c : Thread nD τ).loc main_arg3) :=
  ((W4_of_ne m ρ c main_arg3 (by decide))).trans (((by host_keeps hostOps0_2 : W3 m ρ c (Proc.devRef .tc main_arg3) = W2 m ρ c (Proc.devRef .tc main_arg3))).trans (((by host_keeps hostOps0_1 : W2 m ρ c (Proc.devRef .tc main_arg3) = W1 m ρ c (Proc.devRef .tc main_arg3))).trans (((by host_keeps hostOps0 : W1 m ρ c (Proc.devRef .tc main_arg3) = W0 m ρ c (Proc.devRef .tc main_arg3))).trans (rfl))))
theorem arg4_at5 : W5 m ρ c (Proc.devRef .tc main_arg4) = m ((c : Thread nD τ).loc main_arg4) :=
  ((by host_keeps hostOps1 : W5 m ρ c (Proc.devRef .tc main_arg4) = W4 m ρ c (Proc.devRef .tc main_arg4))).trans (((W4_of_ne m ρ c main_arg4 (by decide))).trans (((by host_keeps hostOps0_2 : W3 m ρ c (Proc.devRef .tc main_arg4) = W2 m ρ c (Proc.devRef .tc main_arg4))).trans (((by host_keeps hostOps0_1 : W2 m ρ c (Proc.devRef .tc main_arg4) = W1 m ρ c (Proc.devRef .tc main_arg4))).trans (((by host_keeps hostOps0 : W1 m ρ c (Proc.devRef .tc main_arg4) = W0 m ρ c (Proc.devRef .tc main_arg4))).trans (rfl)))))
theorem arg5_at6 : W6 m ρ c (Proc.devRef .tc main_arg5) = m ((c : Thread nD τ).loc main_arg5) :=
  ((W6_of_ne m ρ c main_arg5 (by decide))).trans (((by host_keeps hostOps1 : W5 m ρ c (Proc.devRef .tc main_arg5) = W4 m ρ c (Proc.devRef .tc main_arg5))).trans (((W4_of_ne m ρ c main_arg5 (by decide))).trans (((by host_keeps hostOps0_2 : W3 m ρ c (Proc.devRef .tc main_arg5) = W2 m ρ c (Proc.devRef .tc main_arg5))).trans (((by host_keeps hostOps0_1 : W2 m ρ c (Proc.devRef .tc main_arg5) = W1 m ρ c (Proc.devRef .tc main_arg5))).trans (((by host_keeps hostOps0 : W1 m ρ c (Proc.devRef .tc main_arg5) = W0 m ρ c (Proc.devRef .tc main_arg5))).trans (rfl))))))
theorem arg6_at7 : W7 m ρ c (Proc.devRef .tc main_arg6) = m ((c : Thread nD τ).loc main_arg6) :=
  ((by host_keeps hostOps2 : W7 m ρ c (Proc.devRef .tc main_arg6) = W6 m ρ c (Proc.devRef .tc main_arg6))).trans (((W6_of_ne m ρ c main_arg6 (by decide))).trans (((by host_keeps hostOps1 : W5 m ρ c (Proc.devRef .tc main_arg6) = W4 m ρ c (Proc.devRef .tc main_arg6))).trans (((W4_of_ne m ρ c main_arg6 (by decide))).trans (((by host_keeps hostOps0_2 : W3 m ρ c (Proc.devRef .tc main_arg6) = W2 m ρ c (Proc.devRef .tc main_arg6))).trans (((by host_keeps hostOps0_1 : W2 m ρ c (Proc.devRef .tc main_arg6) = W1 m ρ c (Proc.devRef .tc main_arg6))).trans (((by host_keeps hostOps0 : W1 m ρ c (Proc.devRef .tc main_arg6) = W0 m ρ c (Proc.devRef .tc main_arg6))).trans (rfl)))))))
theorem arg7_at8 : W8 m ρ c (Proc.devRef .tc main_arg7) = m ((c : Thread nD τ).loc main_arg7) :=
  ((W8_of_ne m ρ c main_arg7 (by decide))).trans (((by host_keeps hostOps2 : W7 m ρ c (Proc.devRef .tc main_arg7) = W6 m ρ c (Proc.devRef .tc main_arg7))).trans (((W6_of_ne m ρ c main_arg7 (by decide))).trans (((by host_keeps hostOps1 : W5 m ρ c (Proc.devRef .tc main_arg7) = W4 m ρ c (Proc.devRef .tc main_arg7))).trans (((W4_of_ne m ρ c main_arg7 (by decide))).trans (((by host_keeps hostOps0_2 : W3 m ρ c (Proc.devRef .tc main_arg7) = W2 m ρ c (Proc.devRef .tc main_arg7))).trans (((by host_keeps hostOps0_1 : W2 m ρ c (Proc.devRef .tc main_arg7) = W1 m ρ c (Proc.devRef .tc main_arg7))).trans (((by host_keeps hostOps0 : W1 m ρ c (Proc.devRef .tc main_arg7) = W0 m ρ c (Proc.devRef .tc main_arg7))).trans (rfl))))))))
theorem arg8_at9 : W9 m ρ c (Proc.devRef .tc main_arg8) = m ((c : Thread nD τ).loc main_arg8) :=
  ((by host_keeps hostOps3 : W9 m ρ c (Proc.devRef .tc main_arg8) = W8 m ρ c (Proc.devRef .tc main_arg8))).trans (((W8_of_ne m ρ c main_arg8 (by decide))).trans (((by host_keeps hostOps2 : W7 m ρ c (Proc.devRef .tc main_arg8) = W6 m ρ c (Proc.devRef .tc main_arg8))).trans (((W6_of_ne m ρ c main_arg8 (by decide))).trans (((by host_keeps hostOps1 : W5 m ρ c (Proc.devRef .tc main_arg8) = W4 m ρ c (Proc.devRef .tc main_arg8))).trans (((W4_of_ne m ρ c main_arg8 (by decide))).trans (((by host_keeps hostOps0_2 : W3 m ρ c (Proc.devRef .tc main_arg8) = W2 m ρ c (Proc.devRef .tc main_arg8))).trans (((by host_keeps hostOps0_1 : W2 m ρ c (Proc.devRef .tc main_arg8) = W1 m ρ c (Proc.devRef .tc main_arg8))).trans (((by host_keeps hostOps0 : W1 m ρ c (Proc.devRef .tc main_arg8) = W0 m ρ c (Proc.devRef .tc main_arg8))).trans (rfl)))))))))
theorem arg9_at10 : W10 m ρ c (Proc.devRef .tc main_arg9) = m ((c : Thread nD τ).loc main_arg9) :=
  ((W10_of_ne m ρ c main_arg9 (by decide))).trans (((by host_keeps hostOps3 : W9 m ρ c (Proc.devRef .tc main_arg9) = W8 m ρ c (Proc.devRef .tc main_arg9))).trans (((W8_of_ne m ρ c main_arg9 (by decide))).trans (((by host_keeps hostOps2 : W7 m ρ c (Proc.devRef .tc main_arg9) = W6 m ρ c (Proc.devRef .tc main_arg9))).trans (((W6_of_ne m ρ c main_arg9 (by decide))).trans (((by host_keeps hostOps1 : W5 m ρ c (Proc.devRef .tc main_arg9) = W4 m ρ c (Proc.devRef .tc main_arg9))).trans (((W4_of_ne m ρ c main_arg9 (by decide))).trans (((by host_keeps hostOps0_2 : W3 m ρ c (Proc.devRef .tc main_arg9) = W2 m ρ c (Proc.devRef .tc main_arg9))).trans (((by host_keeps hostOps0_1 : W2 m ρ c (Proc.devRef .tc main_arg9) = W1 m ρ c (Proc.devRef .tc main_arg9))).trans (((by host_keeps hostOps0 : W1 m ρ c (Proc.devRef .tc main_arg9) = W0 m ρ c (Proc.devRef .tc main_arg9))).trans (rfl))))))))))
theorem arg11_at10 : W10 m ρ c (Proc.devRef .tc main_arg11) = m ((c : Thread nD τ).loc main_arg11) :=
  ((W10_of_ne m ρ c main_arg11 (by decide))).trans (((by host_keeps hostOps3 : W9 m ρ c (Proc.devRef .tc main_arg11) = W8 m ρ c (Proc.devRef .tc main_arg11))).trans (((W8_of_ne m ρ c main_arg11 (by decide))).trans (((by host_keeps hostOps2 : W7 m ρ c (Proc.devRef .tc main_arg11) = W6 m ρ c (Proc.devRef .tc main_arg11))).trans (((W6_of_ne m ρ c main_arg11 (by decide))).trans (((by host_keeps hostOps1 : W5 m ρ c (Proc.devRef .tc main_arg11) = W4 m ρ c (Proc.devRef .tc main_arg11))).trans (((W4_of_ne m ρ c main_arg11 (by decide))).trans (((by host_keeps hostOps0_2 : W3 m ρ c (Proc.devRef .tc main_arg11) = W2 m ρ c (Proc.devRef .tc main_arg11))).trans (((by host_keeps hostOps0_1 : W2 m ρ c (Proc.devRef .tc main_arg11) = W1 m ρ c (Proc.devRef .tc main_arg11))).trans (((by host_keeps hostOps0 : W1 m ρ c (Proc.devRef .tc main_arg11) = W0 m ρ c (Proc.devRef .tc main_arg11))).trans (rfl))))))))))
theorem arg10_at11 : W11 m ρ c (Proc.devRef .tc main_arg10) = m ((c : Thread nD τ).loc main_arg10) :=
  ((by host_keeps hostOps4 : W11 m ρ c (Proc.devRef .tc main_arg10) = W10 m ρ c (Proc.devRef .tc main_arg10))).trans (((W10_of_ne m ρ c main_arg10 (by decide))).trans (((by host_keeps hostOps3 : W9 m ρ c (Proc.devRef .tc main_arg10) = W8 m ρ c (Proc.devRef .tc main_arg10))).trans (((W8_of_ne m ρ c main_arg10 (by decide))).trans (((by host_keeps hostOps2 : W7 m ρ c (Proc.devRef .tc main_arg10) = W6 m ρ c (Proc.devRef .tc main_arg10))).trans (((W6_of_ne m ρ c main_arg10 (by decide))).trans (((by host_keeps hostOps1 : W5 m ρ c (Proc.devRef .tc main_arg10) = W4 m ρ c (Proc.devRef .tc main_arg10))).trans (((W4_of_ne m ρ c main_arg10 (by decide))).trans (((by host_keeps hostOps0_2 : W3 m ρ c (Proc.devRef .tc main_arg10) = W2 m ρ c (Proc.devRef .tc main_arg10))).trans (((by host_keeps hostOps0_1 : W2 m ρ c (Proc.devRef .tc main_arg10) = W1 m ρ c (Proc.devRef .tc main_arg10))).trans (((by host_keeps hostOps0 : W1 m ρ c (Proc.devRef .tc main_arg10) = W0 m ρ c (Proc.devRef .tc main_arg10))).trans (rfl)))))))))))

/-! ## The graph arrays (sources, destinations, weights), at the start of each later aggregation -/

theorem src_at4 : W4 m ρ c (Proc.devRef .tc main_v5) = W3 m ρ c (Proc.devRef .tc main_v5) :=
  (W4_of_ne m ρ c main_v5 (by decide))
theorem src_at6 : W6 m ρ c (Proc.devRef .tc main_v5) = W3 m ρ c (Proc.devRef .tc main_v5) :=
  ((W6_of_ne m ρ c main_v5 (by decide))).trans (((by host_keeps hostOps1 : W5 m ρ c (Proc.devRef .tc main_v5) = W4 m ρ c (Proc.devRef .tc main_v5))).trans ((W4_of_ne m ρ c main_v5 (by decide))))
theorem src_at8 : W8 m ρ c (Proc.devRef .tc main_v5) = W3 m ρ c (Proc.devRef .tc main_v5) :=
  ((W8_of_ne m ρ c main_v5 (by decide))).trans (((by host_keeps hostOps2 : W7 m ρ c (Proc.devRef .tc main_v5) = W6 m ρ c (Proc.devRef .tc main_v5))).trans (((W6_of_ne m ρ c main_v5 (by decide))).trans (((by host_keeps hostOps1 : W5 m ρ c (Proc.devRef .tc main_v5) = W4 m ρ c (Proc.devRef .tc main_v5))).trans ((W4_of_ne m ρ c main_v5 (by decide))))))
theorem src_at10 : W10 m ρ c (Proc.devRef .tc main_v5) = W3 m ρ c (Proc.devRef .tc main_v5) :=
  ((W10_of_ne m ρ c main_v5 (by decide))).trans (((by host_keeps hostOps3 : W9 m ρ c (Proc.devRef .tc main_v5) = W8 m ρ c (Proc.devRef .tc main_v5))).trans (((W8_of_ne m ρ c main_v5 (by decide))).trans (((by host_keeps hostOps2 : W7 m ρ c (Proc.devRef .tc main_v5) = W6 m ρ c (Proc.devRef .tc main_v5))).trans (((W6_of_ne m ρ c main_v5 (by decide))).trans (((by host_keeps hostOps1 : W5 m ρ c (Proc.devRef .tc main_v5) = W4 m ρ c (Proc.devRef .tc main_v5))).trans ((W4_of_ne m ρ c main_v5 (by decide))))))))
theorem dst_at4 : W4 m ρ c (Proc.devRef .tc main_v6) = W3 m ρ c (Proc.devRef .tc main_v6) :=
  (W4_of_ne m ρ c main_v6 (by decide))
theorem dst_at6 : W6 m ρ c (Proc.devRef .tc main_v6) = W3 m ρ c (Proc.devRef .tc main_v6) :=
  ((W6_of_ne m ρ c main_v6 (by decide))).trans (((by host_keeps hostOps1 : W5 m ρ c (Proc.devRef .tc main_v6) = W4 m ρ c (Proc.devRef .tc main_v6))).trans ((W4_of_ne m ρ c main_v6 (by decide))))
theorem dst_at8 : W8 m ρ c (Proc.devRef .tc main_v6) = W3 m ρ c (Proc.devRef .tc main_v6) :=
  ((W8_of_ne m ρ c main_v6 (by decide))).trans (((by host_keeps hostOps2 : W7 m ρ c (Proc.devRef .tc main_v6) = W6 m ρ c (Proc.devRef .tc main_v6))).trans (((W6_of_ne m ρ c main_v6 (by decide))).trans (((by host_keeps hostOps1 : W5 m ρ c (Proc.devRef .tc main_v6) = W4 m ρ c (Proc.devRef .tc main_v6))).trans ((W4_of_ne m ρ c main_v6 (by decide))))))
theorem dst_at10 : W10 m ρ c (Proc.devRef .tc main_v6) = W3 m ρ c (Proc.devRef .tc main_v6) :=
  ((W10_of_ne m ρ c main_v6 (by decide))).trans (((by host_keeps hostOps3 : W9 m ρ c (Proc.devRef .tc main_v6) = W8 m ρ c (Proc.devRef .tc main_v6))).trans (((W8_of_ne m ρ c main_v6 (by decide))).trans (((by host_keeps hostOps2 : W7 m ρ c (Proc.devRef .tc main_v6) = W6 m ρ c (Proc.devRef .tc main_v6))).trans (((W6_of_ne m ρ c main_v6 (by decide))).trans (((by host_keeps hostOps1 : W5 m ρ c (Proc.devRef .tc main_v6) = W4 m ρ c (Proc.devRef .tc main_v6))).trans ((W4_of_ne m ρ c main_v6 (by decide))))))))
theorem nrm_at4 : W4 m ρ c (Proc.devRef .tc main_v30) = W3 m ρ c (Proc.devRef .tc main_v30) :=
  (W4_of_ne m ρ c main_v30 (by decide))
theorem nrm_at6 : W6 m ρ c (Proc.devRef .tc main_v30) = W3 m ρ c (Proc.devRef .tc main_v30) :=
  ((W6_of_ne m ρ c main_v30 (by decide))).trans (((by host_keeps hostOps1 : W5 m ρ c (Proc.devRef .tc main_v30) = W4 m ρ c (Proc.devRef .tc main_v30))).trans ((W4_of_ne m ρ c main_v30 (by decide))))
theorem nrm_at8 : W8 m ρ c (Proc.devRef .tc main_v30) = W3 m ρ c (Proc.devRef .tc main_v30) :=
  ((W8_of_ne m ρ c main_v30 (by decide))).trans (((by host_keeps hostOps2 : W7 m ρ c (Proc.devRef .tc main_v30) = W6 m ρ c (Proc.devRef .tc main_v30))).trans (((W6_of_ne m ρ c main_v30 (by decide))).trans (((by host_keeps hostOps1 : W5 m ρ c (Proc.devRef .tc main_v30) = W4 m ρ c (Proc.devRef .tc main_v30))).trans ((W4_of_ne m ρ c main_v30 (by decide))))))
theorem nrm_at10 : W10 m ρ c (Proc.devRef .tc main_v30) = W3 m ρ c (Proc.devRef .tc main_v30) :=
  ((W10_of_ne m ρ c main_v30 (by decide))).trans (((by host_keeps hostOps3 : W9 m ρ c (Proc.devRef .tc main_v30) = W8 m ρ c (Proc.devRef .tc main_v30))).trans (((W8_of_ne m ρ c main_v30 (by decide))).trans (((by host_keeps hostOps2 : W7 m ρ c (Proc.devRef .tc main_v30) = W6 m ρ c (Proc.devRef .tc main_v30))).trans (((W6_of_ne m ρ c main_v30 (by decide))).trans (((by host_keeps hostOps1 : W5 m ρ c (Proc.devRef .tc main_v30) = W4 m ρ c (Proc.devRef .tc main_v30))).trans ((W4_of_ne m ρ c main_v30 (by decide))))))))

end Cert.KernelIdeal.Whole

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.Layers.lean ====
/-
  The dense halves of a graph convolution network, read entry by entry on the extended reals.

  Between two neighbourhood aggregations such a network applies one dense step to every node's row by itself:

    first layer   y(p, q) = ∑ₖ x(p, k) · W(k, q)
    hidden layer  y(p, q) = ∑ₖ max(a(p, k) + b(k), 0) · W(k, q)       (bias and rectifier of the layer before, then the weights)
    read-out      y(p)    = σ(∑ₖ (a(p, k) + b(k)) · w(k) + c),         σ(t) = 1 / (1 + e^(−t)).

  A row of the result depends on the same row of the input only, so the formulas do not care how many rows an array
  has: they are stated for any number of rows, once for a matrix product accumulated into zero with the bias given as a
  one-row matrix (a block of rows inside a kernel), and once for a host contraction with the bias given as a vector
  broadcast to a row and down the rows (the whole array). No law of arithmetic is used: both spellings unfold to the
  same sum, so nothing here needs the entries to be finite.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«138871_j38113539785257_1_alg».proof.Proof.LibDenseRow

noncomputable section

open scoped BigOperators

namespace Cert.Gcn

open Idealize.ShloMosaic Idealize.ShloMosaic.ValueIdx

/-- An `M × N` array of extended reals. -/
abbrev Mat (M N : Nat) : Type := (⟨2, ![M, N]⟩ : Shape).Idx → EReal

/-- `x · W`: entry `(p, q)` is `∑ₖ x(p, k) · W(k, q)`. -/
def lin {M K N : Nat} (X : Mat M K) (W : Mat K N) : Mat M N :=
  fun i => ∑ k : Fin K, X (ix2 (i 0 : Fin M) k) * W (ix2 k (i 1 : Fin N))

/-- `max(a + b, 0) · W` with the bias `b` a function of the column. -/
def hid {M K N : Nat} (A : Mat M K) (b : Fin K → EReal) (W : Mat K N) : Mat M N :=
  fun i => ∑ k : Fin K, max (A (ix2 (i 0 : Fin M) k) + b k) 0 * W (ix2 k (i 1 : Fin N))

/-- `σ((a + b) · w + c)`, one number per row. -/
def out {M K : Nat} (A : Mat M K) (b : Fin K → EReal) (w : Mat K 1) (c : EReal) : Mat M 1 :=
  fun i => Ideal.logistic ((∑ k : Fin K, (A (ix2 (i 0 : Fin M) k) + b k) * w (ix2 k (0 : Fin 1))) + c)

theorem lin_apply {M K N : Nat} (X : Mat M K) (W : Mat K N) (p : Fin M) (q : Fin N) :
    lin X W (ix2 p q) = ∑ k : Fin K, X (ix2 p k) * W (ix2 k q) := rfl

theorem hid_apply {M K N : Nat} (A : Mat M K) (b : Fin K → EReal) (W : Mat K N) (p : Fin M) (q : Fin N) :
    hid A b W (ix2 p q) = ∑ k : Fin K, max (A (ix2 p k) + b k) 0 * W (ix2 k q) := rfl

theorem out_apply {M K : Nat} (A : Mat M K) (b : Fin K → EReal) (w : Mat K 1) (c : EReal) (p : Fin M) (q : Fin 1) :
    out A b w c (ix2 p q) = Ideal.logistic ((∑ k : Fin K, (A (ix2 p k) + b k) * w (ix2 k 0)) + c) := rfl

/-! ## Biases as functions of the column, and the reshapes between a vector, a one-row and a one-column array -/

/-- A one-row array as a function of the column. -/
def row {K : Nat} (B : Mat 1 K) : Fin K → EReal := fun k => B (ix2 (0 : Fin 1) k)

/-- A vector as a function of its one coordinate. -/
def vec {K : Nat} (b : (⟨1, ![K]⟩ : Shape).Idx → EReal) : Fin K → EReal := fun k => b (ix1 k)

/-- A vector reshaped to a one-row array has the vector's entries. -/
theorem row_shapeCast {K : Nat} (v : (⟨1, ![K]⟩ : Shape).Idx → EReal) (h : (⟨1, ![K]⟩ : Shape).ShapeCasts ⟨2, ![1, K]⟩) :
    row (shapeCast ⟨2, ![1, K]⟩ v h) = vec v :=
  funext fun k => shapeCast_apply v h (ix2 (0 : Fin 1) k) (ix1 k) (by
    rw [Shape.rowMajor_val_one, Shape.rowMajor_val_two]
    show k.val = 0 * K + k.val
    omega)

/-- A one-column array reshaped to a vector has the column's entries. -/
theorem col_shapeCast {M : Nat} (v : Mat M 1) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## The formulas depend on the entries they read and on nothing else -/

/-- Two products agree at entries whose rows of the left factor and columns of the right factor agree. -/
theorem lin_congr {M M' K N : Nat} {X : Mat M K} {X' : Mat M' K} {W W' : Mat K N}
    {i : (⟨2, ![M, N]⟩ : Shape).Idx} {i' : (⟨2, ![M', N]⟩ : Shape).Idx}
    (hX : ∀ k : Fin K, X (ix2 (i 0 : Fin M) k) = X' (ix2 (i' 0 : Fin M') k))
    (hW : ∀ k : Fin K, W (ix2 k (i 1 : Fin N)) = W' (ix2 k (i' 1 : Fin N))) : lin X W i = lin X' W' i' := by
  unfold lin
  exact Finset.sum_congr rfl fun k _ => by rw [hX k, hW k]

/-- The same for a hidden layer, with biases that agree. -/
theorem hid_congr {M M' K N : Nat} {A : Mat M K} {A' : Mat M' K} {b b' : Fin K → EReal} {W W' : Mat K N}
    {i : (⟨2, ![M, N]⟩ : Shape).Idx} {i' : (⟨2, ![M', N]⟩ : Shape).Idx}
    (hA : ∀ k : Fin K, A (ix2 (i 0 : Fin M) k) = A' (ix2 (i' 0 : Fin M') k)) (hb : ∀ k : Fin K, b k = b' k)
    (hW : ∀ k : Fin K, W (ix2 k (i 1 : Fin N)) = W' (ix2 k (i' 1 : Fin N))) : hid A b W i = hid A' b' W' i' := by
  unfold hid
  exact Finset.sum_congr rfl fun k _ => by rw [hA k, hb k, hW k]

/-- The same for the read-out, with biases, weight columns and scalars that agree. -/
theorem out_congr {M M' K : Nat} {A : Mat M K} {A' : Mat M' K} {b b' : Fin K → EReal} {w w' : Mat K 1} {c c' : EReal}
    {i : (⟨2, ![M, 1]⟩ : Shape).Idx} {i' : (⟨2, ![M', 1]⟩ : Shape).Idx}
    (hA : ∀ k : Fin K, A (ix2 (i 0 : Fin M) k) = A' (ix2 (i' 0 : Fin M') k)) (hb : ∀ k : Fin K, b k = b' k)
    (hw : ∀ k : Fin K, w (ix2 k (0 : Fin 1)) = w' (ix2 k (0 : Fin 1))) (hc : c = c') : out A b w c i = out A' b' w' c' i' := by
  unfold out
  rw [hc]
  exact congrArg (fun s => Ideal.logistic (s + c')) (Finset.sum_congr rfl fun k _ => by rw [hA k, hb k, hw k])

/-! ## Inside a kernel: a block of rows, the matrix product into zero, the bias a one-row matrix -/

/-- The first layer's block: the product alone (the changes of float format are the identity). -/
theorem block_lin (M K N : Nat) (x : FVec Ideal ⟨2, ![M, K]⟩ .f32) (w : FVec Ideal ⟨2, ![K, N]⟩ .f32)
    (hb : FTy.bf16.bits < FTy.f32.bits) (p : Fin M) (q : Fin N) :
    matmul (DotDims.plain M K N) none (truncf .bf16 x hb) (truncf .bf16 w hb) (constant ⟨2, ![M, N]⟩ .f32 0x00000000#32) (ix2 p q)
      = lin x w (ix2 p q) :=
  Cert.LibDenseRow.matmul_zero_apply M K N none _ _ p q

/-- A hidden layer's block: bias row, rectifier against the zero word, then the product. -/
theorem block_hid (M K N : Nat) (x : FVec Ideal ⟨2, ![M, K]⟩ .f32) (b : FVec Ideal ⟨2, ![1, K]⟩ .f32)
    (w : FVec Ideal ⟨2, ![K, N]⟩ .f32) (h1 : (⟨2, ![M, K]⟩ : Shape).ShapeCasts ⟨2, ![M, K]⟩)
    (h2 : (⟨2, ![1, K]⟩ : Shape).ShapeCasts ⟨2, ![1, K]⟩) (h3 : (⟨2, ![1, K]⟩ : Shape).Broadcasts ⟨2, ![M, K]⟩)
    (hb : FTy.bf16.bits < FTy.f32.bits) (p : Fin M) (q : Fin N) :
    matmul (DotDims.plain M K N) none
        (truncf .bf16 (maximumf (addf (shapeCast ⟨2, ![M, K]⟩ x h1) (broadcastTo ⟨2, ![M, K]⟩ (shapeCast ⟨2, ![1, K]⟩ b h2) h3))
          (broadcast ⟨2, ![M, K]⟩ (Scalar.ofBits .f32 0x00000000#32))) hb)
        (truncf .bf16 w hb) (constant ⟨2, ![M, N]⟩ .f32 0x00000000#32) (ix2 p q)
      = hid x (fun k => b (ix2 0 k)) w (ix2 p q) := by
  rw [Cert.LibDenseRow.matmul_zero_apply, hid_apply]
  refine Finset.sum_congr rfl fun k _ => ?_
  rw [shapeCast_self, shapeCast_self]
  show max (x (ix2 p k) + broadcastTo ⟨2, ![M, K]⟩ b h3 (ix2 p k)) (Ideal.ofBits .f32 0x00000000#32) * w (ix2 k q) = _
  rw [Cert.LibDenseRow.biasRow_apply, Ideal.ofBits_zero_f32]

/-- The read-out's block: bias row, product with the one weight column, the scalar added, the logistic function. -/
theorem block_out (M K : Nat) (x : FVec Ideal ⟨2, ![M, K]⟩ .f32) (b : FVec Ideal ⟨2, ![1, K]⟩ .f32)
    (w : FVec Ideal ⟨2, ![K, 1]⟩ .f32) (c : FVec Ideal ⟨2, ![1, 1]⟩ .f32)
    (h1 : (⟨2, ![M, K]⟩ : Shape).ShapeCasts ⟨2, ![M, K]⟩)
    (h2 : (⟨2, ![1, K]⟩ : Shape).ShapeCasts ⟨2, ![1, K]⟩) (h3 : (⟨2, ![1, K]⟩ : Shape).Broadcasts ⟨2, ![M, K]⟩)
    (h4 : (⟨2, ![1, 1]⟩ : Shape).ShapeCasts ⟨2, ![1, 1]⟩) (h5 : (⟨2, ![1, 1]⟩ : Shape).Broadcasts ⟨2, ![M, 1]⟩)
    (hb : FTy.bf16.bits < FTy.f32.bits) (p : Fin M) (q : Fin 1) :
    logistic (addf (matmul (DotDims.plain M K 1) none
          (truncf .bf16 (addf (shapeCast ⟨2, ![M, K]⟩ x h1) (broadcastTo ⟨2, ![M, K]⟩ (shapeCast ⟨2, ![1, K]⟩ b h2) h3)) hb)
          (truncf .bf16 w hb) (constant ⟨2, ![M, 1]⟩ .f32 0x00000000#32))
        (broadcastTo ⟨2, ![M, 1]⟩ (shapeCast ⟨2, ![1, 1]⟩ c h4) h5)) (ix2 p q)
      = out x (fun k => b (ix2 0 k)) w (c (ix2 0 0)) (ix2 p q) := by
  show Ideal.logistic (matmul (F := Ideal) (DotDims.plain M K 1) none _ _ _ (ix2 p q) + broadcastTo ⟨2, ![M, 1]⟩ (shapeCast ⟨2, ![1, 1]⟩ c h4) h5 (ix2 p q)) = _
  rw [Cert.LibDenseRow.matmul_zero_apply, out_apply, shapeCast_self, shapeCast_self, shapeCast_self,
    Cert.LibDenseRow.biasRow_apply]
  have hq : q = 0 := Subsingleton.elim _ _
  subst hq
  refine congrArg (fun s => Ideal.logistic (s + c (ix2 0 0))) (Finset.sum_congr rfl fun k _ => ?_)
  show (x (ix2 p k) + broadcastTo ⟨2, ![M, K]⟩ b h3 (ix2 p k)) * w (ix2 k 0) = _
  rw [Cert.LibDenseRow.biasRow_apply]

/-! ## On the host: the whole array, the contraction, the bias a vector broadcast to a row and down the rows -/

/-- The first layer on the host: the contraction alone. -/
theorem host_lin (M K N : Nat) (x : FVec Ideal ⟨2, ![M, K]⟩ .f32) (w : FVec Ideal ⟨2, ![K, N]⟩ .f32) (p : Fin M) (q : Fin N) :
    Host.dotGeneral (DotDims.plain M K N) none x w (ix2 p q) = lin x w (ix2 p q) :=
  Cert.LibDenseRow.dotGeneral_apply M K N none x w p q

/-- A hidden layer on the host: bias vector, rectifier against a broadcast zero word, then the contraction. -/
theorem host_hid (M K N : Nat) (a : FVec Ideal ⟨2, ![M, K]⟩ .f32) (b : FVec Ideal ⟨1, ![K]⟩ .f32)
    (w : FVec Ideal ⟨2, ![K, N]⟩ .f32) (h₁ : (⟨1, ![K]⟩ : Shape).BroadcastsInDim ⟨2, ![1, K]⟩ ![1])
    (h₂ : (⟨2, ![1, K]⟩ : Shape).BroadcastsInDim ⟨2, ![M, K]⟩ ![0, 1])
    (hz : (⟨0, ![]⟩ : Shape).BroadcastsInDim ⟨2, ![M, K]⟩ ![]) (p : Fin M) (q : Fin N) :
    Host.dotGeneral (DotDims.plain M K N) none
        (maximumf (addf a (broadcastInDim ⟨2, ![M, K]⟩ ![0, 1] h₂ (broadcastInDim ⟨2, ![1, K]⟩ ![1] h₁ b)))
          (broadcastInDim ⟨2, ![M, K]⟩ ![] hz (constant ⟨0, ![]⟩ .f32 0x00000000#32)))
        w (ix2 p q)
      = hid a (fun k => b (ix1 k)) w (ix2 p q) := by
  rw [Cert.LibDenseRow.dotGeneral_apply, hid_apply]
  refine Finset.sum_congr rfl fun k _ => ?_
  show max (a (ix2 p k) + broadcastInDim ⟨2, ![M, K]⟩ ![0, 1] h₂ (broadcastInDim ⟨2, ![1, K]⟩ ![1] h₁ b) (ix2 p k))
      (broadcastInDim ⟨2, ![M, K]⟩ ![] hz (constant ⟨0, ![]⟩ .f32 0x00000000#32) (ix2 p k)) * w (ix2 k q) = _
  rw [Cert.LibDenseRow.biasVec_apply, broadcastInDim_scalar_apply]
  show max (a (ix2 p k) + b (ix1 k)) (Ideal.ofBits .f32 0x00000000#32) * w (ix2 k q) = _
  rw [Ideal.ofBits_zero_f32]

/-- The read-out on the host: bias vector, contraction with the weight column, the scalar broadcast and added, the
    column reshaped to a vector, and the logistic function spelt `1 / (1 + e^(−s))` with broadcast ones. -/
theorem host_out (M K : Nat) (a : FVec Ideal ⟨2, ![M, K]⟩ .f32) (b : FVec Ideal ⟨1, ![K]⟩ .f32)
    (w : FVec Ideal ⟨2, ![K, 1]⟩ .f32) (c : FVec Ideal ⟨1, ![1]⟩ .f32)
    (h₁ : (⟨1, ![K]⟩ : Shape).BroadcastsInDim ⟨2, ![1, K]⟩ ![1])
    (h₂ : (⟨2, ![1, K]⟩ : Shape).BroadcastsInDim ⟨2, ![M, K]⟩ ![0, 1])
    (h₃ : (⟨1, ![1]⟩ : Shape).BroadcastsInDim ⟨2, ![1, 1]⟩ ![1])
    (h₄ : (⟨2, ![1, 1]⟩ : Shape).BroadcastsInDim ⟨2, ![M, 1]⟩ ![0, 1])
    (hs : (⟨2, ![M, 1]⟩ : Shape).ShapeCasts ⟨1, ![M]⟩)
    (ho : (⟨0, ![]⟩ : Shape).BroadcastsInDim ⟨1, ![M]⟩ ![]) (p : Fin M) :
    Host.divf (broadcastInDim ⟨1, ![M]⟩ ![] ho (constant ⟨0, ![]⟩ .f32 0x3F800000#32))
        (addf (broadcastInDim ⟨1, ![M]⟩ ![] ho (constant ⟨0, ![]⟩ .f32 0x3F800000#32))
          (Host.exp (Host.negf (shapeCast ⟨1, ![M]⟩
            (addf (Host.dotGeneral (DotDims.plain M K 1) none
                (addf a (broadcastInDim ⟨2, ![M, K]⟩ ![0, 1] h₂ (broadcastInDim ⟨2, ![1, K]⟩ ![1] h₁ b))) w)
              (broadcastInDim ⟨2, ![M, 1]⟩ ![0, 1] h₄ (broadcastInDim ⟨2, ![1, 1]⟩ ![1] h₃ c))) hs)))) (ix1 p)
      = out a (fun k => b (ix1 k)) w (c (ix1 0)) (ix2 p 0) := by
  rw [out_apply]
  show Ideal.div (broadcastInDim ⟨1, ![M]⟩ ![] ho (constant (F := Ideal) ⟨0, ![]⟩ .f32 0x3F800000#32) (ix1 p))
      (broadcastInDim ⟨1, ![M]⟩ ![] ho (constant (F := Ideal) ⟨0, ![]⟩ .f32 0x3F800000#32) (ix1 p)
        + Ideal.exp (-(shapeCast ⟨1, ![M]⟩
            (addf (Host.dotGeneral (DotDims.plain M K 1) none
                (addf a (broadcastInDim ⟨2, ![M, K]⟩ ![0, 1] h₂ (broadcastInDim ⟨2, ![1, K]⟩ ![1] h₁ b))) w)
              (broadcastInDim ⟨2, ![M, 1]⟩ ![0, 1] h₄ (broadcastInDim ⟨2, ![1, 1]⟩ ![1] h₃ c))) hs (ix1 p)))) = _
  rw [broadcastInDim_scalar_apply]
  have hone : (constant ⟨0, ![]⟩ .f32 0x3F800000#32 : FVec Ideal ⟨0, ![]⟩ .f32) ix0 = 1 := Ideal.ofBits_one_f32
  rw [hone]
  have hcast : shapeCast ⟨1, ![M]⟩
      (addf (Host.dotGeneral (DotDims.plain M K 1) none
          (addf a (broadcastInDim ⟨2, ![M, K]⟩ ![0, 1] h₂ (broadcastInDim ⟨2, ![1, K]⟩ ![1] h₁ b))) w)
        (broadcastInDim ⟨2, ![M, 1]⟩ ![0, 1] h₄ (broadcastInDim ⟨2, ![1, 1]⟩ ![1] h₃ c))) hs (ix1 p)
      = (∑ k : Fin K, (a (ix2 p k) + b (ix1 k)) * w (ix2 k 0)) + c (ix1 0) := by
    rw [shapeCast_apply _ hs (ix1 p) (ix2 p (0 : Fin 1)) (by
      show (Shape.rowMajor ⟨2, ![M, 1]⟩ (ix2 p (0 : Fin 1))).val = (Shape.rowMajor ⟨1, ![M]⟩ (ix1 p)).val
      rw [Shape.rowMajor_val_two, Shape.rowMajor_val_one]
      show p.val * 1 + 0 = p.val
      omega)]
    show Host.dotGeneral (DotDims.plain M K 1) none _ w (ix2 p 0)
        + broadcastInDim ⟨2, ![M, 1]⟩ ![0, 1] h₄ (broadcastInDim ⟨2, ![1, 1]⟩ ![1] h₃ c) (ix2 p 0) = _
    rw [Cert.LibDenseRow.dotGeneral_apply, Cert.LibDenseRow.biasVec_apply]
    refine congrArg (· + c (ix1 0)) (Finset.sum_congr rfl fun k _ => ?_)
    show (a (ix2 p k) + broadcastInDim ⟨2, ![M, K]⟩ ![0, 1] h₂ (broadcastInDim ⟨2, ![1, K]⟩ ![1] h₁ b) (ix2 p k)) * w (ix2 k 0) = _
    rw [Cert.LibDenseRow.biasVec_apply]
  rw [hcast]
  rfl

/-! ## The network -/

/-- The whole network for an aggregation `A` of node features (any function of `100000 × 16` arrays): four dense
    steps with `A` after each of them, and the read-out. Node `p`'s output. -/
def net (A : Mat 100000 16 → Mat 100000 16) (x : Mat 100000 48) (W1 : Mat 48 16) (b1 : Fin 16 → EReal)
    (W2 : Mat 16 16) (b2 : Fin 16 → EReal) (W3 : Mat 16 16) (b3 : Fin 16 → EReal) (W4 : Mat 16 16) (b4 : Fin 16 → EReal)
    (fw : Mat 16 1) (fb : EReal) (p : Fin 100000) : EReal :=
  out (A (hid (A (hid (A (hid (A (lin x W1)) b1 W2)) b2 W3)) b3 W4)) b4 fw fb (ix2 p 0)

end Cert.Gcn

end
-- ==== Proof.First.lean ====
/-
  The first layer's dense half, as the array it leaves behind.

  The kernel walks the 100000 node rows in ten blocks of 10000. At block `t` it sees rows `10000·t … 10000·t + 9999` of
  the node features `x` and the whole weight matrix `W` (a bias row is staged too, and never read), and writes the same
  rows of the result: entry `(r, q)` of what block `t` writes is `∑ₖ x(10000·t + r, k) · W(k, q)`. Every block is the
  restriction of ONE function of the two arrays, `Cert.Gcn.lin x W`, and since row `i` lies in block `i / 10000` the ten
  blocks fill the array: after the layer the result array IS `x · W`.
-/
import proofs.«138871_j38113539785257_1_alg».proof.Proof.Gen.KernelIdeal.Frame
import proofs.«138871_j38113539785257_1_alg».proof.Proof.Layers
import Idealize.ShloMosaic.Lib.Pipeline.Value
import Idealize.ShloMosaic.Lib.ValueIdx

set_option maxRecDepth 16384

noncomputable section

open scoped BigOperators

namespace Cert.KernelIdeal.First

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer's result as one function of the two arrays the layer reads. -/
def result (c : Dev nD) : S100000x16.Idx → EReal :=
  Cert.Gcn.lin (M := 100000) (K := 48) (N := 16) (V c main_arg0) (V c main_arg2)

/-- One block's arithmetic at entry `(p, q)`: the product on the block's rows. -/
theorem body_apply (x0 : Vec Ideal S10000x48 .f32) (x2 : Vec Ideal S48x16 .f32) (p : Fin 10000) (q : Fin 16) :
    k0_pay1 x0 x2 (ix2 p q) = Cert.Gcn.lin (M := 10000) (K := 48) (N := 16) x0 x2 (ix2 p q) := by
  unfold k0_pay1
  exact Cert.Gcn.block_lin 10000 48 16 x0 x2 _ p q

/-- Where each window's block sits at point `t`: the features and the result at row block `t`, the weights at the one
    block they have; and there are ten points. -/
theorem block_index : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- What point `t` writes back is block `t` of `result`. -/
theorem written_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero zero_offsets]
  simp only [View.ld_unit_zero (S := S10000x48) zero_offsets, View.ld_unit_zero (S := S48x16) zero_offsets]
  obtain ⟨e00, e01, e20, e21, e30, e31, -⟩ := block_index t
  funext j
  obtain ⟨p, q, rfl⟩ : ∃ (p : Fin 10000) (q : Fin 16), j = ix2 p q := ⟨j 0, j 1, eq_ix2 j⟩
  refine (body_apply (iblk0 V c 0 t) (iblk0 V c 2 t) p q).trans ?_
  show _ = Cert.Gcn.lin (M := 100000) (K := 48) (N := 16) (V c main_arg0) (V c main_arg2)
      (((cfg0.win 3).blk t).view.emb (ix2 p q))
  refine Cert.Gcn.lin_congr (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 48 + 1 * k.val = k.val; omega
  · show V c main_arg2 (((cfg0.win 2).blk t).view.emb (ix2 k q)) = _
    refine congrArg (V c main_arg2) (funext fun a => Fin.ext ?_)
    match a with
    | ⟨0, _⟩ => show win0_2.index t (0 : Fin 2) * 48 + 1 * k.val = k.val; omega
    | ⟨1, _⟩ => show win0_2.index t (1 : Fin 2) * 16 + 1 * q.val = win0_3.index t (1 : Fin 2) * 16 + 1 * q.val; omega

/-- An index of the result array is in point `t`'s block iff each coordinate is in the block's range on its axis. -/
theorem mem_block (t : Fin cfg0.N) (i : S100000x16.Idx) :
    i ∈ ((cfg0.win 3).blk t).view.set ↔ ∀ a : Fin 2, win0_3.index t a * S10000x16.size a ≤ (i a).val
      ∧ (i a).val < win0_3.index t a * S10000x16.size a + S10000x16.size a := by
  show i ∈ ((View.whole main_v33).slice (win0_3.rect t)).set ↔ _
  rw [View.set_slice_whole, Rect.mem_set_unit]
  exact Iff.rfl

/-- Row `i` lies in block `i / 10000`: the ten blocks fill the array. -/
theorem blocks_cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : grid0.N = 10 := N_0
  have hlt : (i 0).val / 10000 < grid0.N := by omega
  obtain ⟨-, -, -, -, e30, e31, -⟩ := block_index ⟨(i 0).val / 10000, hlt⟩
  refine ⟨⟨(i 0).val / 10000, hlt⟩, flush0_3 _, ?_⟩
  rw [mem_block]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, hlt⟩ (1 : Fin 2) * 16 ≤ (i 1).val
      ∧ (i 1).val < win0_3.index ⟨(i 0).val / 10000, hlt⟩ (1 : Fin 2) * 16 + 16
    omega

/-- After the layer its result array holds `result`. -/
theorem array_eq (c : Dev nD) : (dat0 V c).arrAt 3 cfg0.N = result V c :=
  (dat0 V c).arrAt_eq_of_cover 3 (result V c) (fun t _ => written_eq V c t) blocks_cover

end Cert.KernelIdeal.First

end
-- ==== Proof.Hidden1.lean ====
/-
  The second layer's hidden layer, as the array it leaves behind.

  The layer's kernel walks the 100000 node rows in ten blocks of 10000. At block `t` it sees rows
  `10000·t … 10000·t + 9999` of the aggregated features `a`, the whole bias row `b` and the whole weight matrix `W`,
  and writes rows `10000·t …` of the result. Entry `(r, q)` of what block `t` writes is
  `∑ₖ max(a(10000·t + r, k) + b(k), 0) · W(k, q)`: a row of the result reads the same row of `a` and nothing else. So every
  block is the restriction of ONE function of the three arrays, `Cert.Gcn.hid a b W`, and since row `i` lies in block
  `i / 10000` the ten blocks fill the array: after the layer the result array IS that function.
-/
import proofs.«138871_j38113539785257_1_alg».proof.Proof.Gen.KernelIdeal.Frame
import proofs.«138871_j38113539785257_1_alg».proof.Proof.Layers
import Idealize.ShloMosaic.Lib.Pipeline.Value
import Idealize.ShloMosaic.Lib.ValueIdx

set_option maxRecDepth 16384

noncomputable section

open scoped BigOperators

namespace Cert.KernelIdeal.Hidden1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer's result as one function of the three arrays the layer reads. -/
def result (c : Dev nD) : S100000x16.Idx → EReal :=
  Cert.Gcn.hid (M := 100000) (K := 16) (N := 16) (V c main_v45) (fun k => V c main_v46 (ix2 0 k)) (V c main_arg4)

/-- One block's arithmetic at entry `(p, q)`: the hidden-layer formula on the block's rows. -/
theorem body_apply (x0 : Vec Ideal S10000x16 .f32) (x1 : Vec Ideal S1x16 .f32) (x2 : Vec Ideal S16x16 .f32)
    (p : Fin 10000) (q : Fin 16) :
    k1_pay1 x0 x1 x2 (ix2 p q)
      = Cert.Gcn.hid (M := 10000) (K := 16) (N := 16) x0 (fun k => x1 (ix2 0 k)) x2 (ix2 p q) := by
  unfold k1_pay1
  exact Cert.Gcn.block_hid 10000 16 16 x0 x1 x2 _ _ _ _ p q

/-- Where each window's block sits at point `t`: the features and the result at row block `t`, the bias and the
    weights at the one block they have; and there are ten points. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- What point `t` writes back is block `t` of `result`. -/
theorem written_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S10000x16) zero_offsets, View.ld_unit_zero (S := S1x16) zero_offsets,
    View.ld_unit_zero (S := S16x16) zero_offsets]
  obtain ⟨e00, e01, e10, e11, e20, e21, e30, e31, -⟩ := block_index t
  funext j
  obtain ⟨p, q, rfl⟩ : ∃ (p : Fin 10000) (q : Fin 16), j = ix2 p q := ⟨j 0, j 1, eq_ix2 j⟩
  refine (body_apply (iblk1 V c 0 t) (iblk1 V c 1 t) (iblk1 V c 2 t) p q).trans ?_
  show _ = Cert.Gcn.hid (M := 100000) (K := 16) (N := 16) (V c main_v45) (fun k => V c main_v46 (ix2 0 k)) (V c main_arg4)
      (((cfg1.win 3).blk t).view.emb (ix2 p q))
  refine Cert.Gcn.hid_congr (fun k => ?_) (fun k => ?_) (fun k => ?_)
  · show V c main_v45 (((cfg1.win 0).blk t).view.emb (ix2 p k)) = _
    refine congrArg (V c main_v45) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 16 + 1 * k.val = k.val; omega
  · show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  · show V c main_arg4 (((cfg1.win 2).blk t).view.emb (ix2 k q)) = _
    refine congrArg (V c main_arg4) (funext fun a => Fin.ext ?_)
    match a with
    | ⟨0, _⟩ => show win1_2.index t (0 : Fin 2) * 16 + 1 * k.val = k.val; omega
    | ⟨1, _⟩ => show win1_2.index t (1 : Fin 2) * 16 + 1 * q.val = win1_3.index t (1 : Fin 2) * 16 + 1 * q.val; omega

/-- An index of the result array is in point `t`'s block iff each coordinate is in the block's range on its axis. -/
theorem mem_block (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v47).slice (win1_3.rect t)).set ↔ _
  rw [View.set_slice_whole, Rect.mem_set_unit]
  exact Iff.rfl

/-- Row `i` lies in block `i / 10000`: the ten blocks fill the array. -/
theorem blocks_cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : grid1.N = 10 := N_1
  have hlt : (i 0).val / 10000 < grid1.N := by omega
  obtain ⟨-, -, -, -, -, -, e30, e31, -⟩ := block_index ⟨(i 0).val / 10000, hlt⟩
  refine ⟨⟨(i 0).val / 10000, hlt⟩, flush1_3 _, ?_⟩
  rw [mem_block]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, hlt⟩ (1 : Fin 2) * 16 ≤ (i 1).val
      ∧ (i 1).val < win1_3.index ⟨(i 0).val / 10000, hlt⟩ (1 : Fin 2) * 16 + 16
    omega

/-- After the layer its result array holds `result`. -/
theorem array_eq (c : Dev nD) : (dat1 V c).arrAt 3 cfg1.N = result V c :=
  (dat1 V c).arrAt_eq_of_cover 3 (result V c) (fun t _ => written_eq V c t) blocks_cover

end Cert.KernelIdeal.Hidden1

end
-- ==== Proof.Hidden2.lean ====
/-
  The third layer's hidden layer, as the array it leaves behind.

  The layer's kernel walks the 100000 node rows in ten blocks of 10000. At block `t` it sees rows
  `10000·t … 10000·t + 9999` of the aggregated features `a`, the whole bias row `b` and the whole weight matrix `W`,
  and writes rows `10000·t …` of the result. Entry `(r, q)` of what block `t` writes is
  `∑ₖ max(a(10000·t + r, k) + b(k), 0) · W(k, q)`: a row of the result reads the same row of `a` and nothing else. So every
  block is the restriction of ONE function of the three arrays, `Cert.Gcn.hid a b W`, and since row `i` lies in block
  `i / 10000` the ten blocks fill the array: after the layer the result array IS that function.
-/
import proofs.«138871_j38113539785257_1_alg».proof.Proof.Gen.KernelIdeal.Frame
import proofs.«138871_j38113539785257_1_alg».proof.Proof.Layers
import Idealize.ShloMosaic.Lib.Pipeline.Value
import Idealize.ShloMosaic.Lib.ValueIdx

set_option maxRecDepth 16384

noncomputable section

open scoped BigOperators

namespace Cert.KernelIdeal.Hidden2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer's result as one function of the three arrays the layer reads. -/
def result (c : Dev nD) : S100000x16.Idx → EReal :=
  Cert.Gcn.hid (M := 100000) (K := 16) (N := 16) (V c main_v59) (fun k => V c main_v60 (ix2 0 k)) (V c main_arg6)

/-- One block's arithmetic at entry `(p, q)`: the hidden-layer formula on the block's rows. -/
theorem body_apply (x0 : Vec Ideal S10000x16 .f32) (x1 : Vec Ideal S1x16 .f32) (x2 : Vec Ideal S16x16 .f32)
    (p : Fin 10000) (q : Fin 16) :
    k2_pay1 x0 x1 x2 (ix2 p q)
      = Cert.Gcn.hid (M := 10000) (K := 16) (N := 16) x0 (fun k => x1 (ix2 0 k)) x2 (ix2 p q) := by
  unfold k2_pay1
  exact Cert.Gcn.block_hid 10000 16 16 x0 x1 x2 _ _ _ _ p q

/-- Where each window's block sits at point `t`: the features and the result at row block `t`, the bias and the
    weights at the one block they have; and there are ten points. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- What point `t` writes back is block `t` of `result`. -/
theorem written_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero zero_offsets]
  simp only [View.ld_unit_zero (S := S10000x16) zero_offsets, View.ld_unit_zero (S := S1x16) zero_offsets,
    View.ld_unit_zero (S := S16x16) zero_offsets]
  obtain ⟨e00, e01, e10, e11, e20, e21, e30, e31, -⟩ := block_index t
  funext j
  obtain ⟨p, q, rfl⟩ : ∃ (p : Fin 10000) (q : Fin 16), j = ix2 p q := ⟨j 0, j 1, eq_ix2 j⟩
  refine (body_apply (iblk2 V c 0 t) (iblk2 V c 1 t) (iblk2 V c 2 t) p q).trans ?_
  show _ = Cert.Gcn.hid (M := 100000) (K := 16) (N := 16) (V c main_v59) (fun k => V c main_v60 (ix2 0 k)) (V c main_arg6)
      (((cfg2.win 3).blk t).view.emb (ix2 p q))
  refine Cert.Gcn.hid_congr (fun k => ?_) (fun k => ?_) (fun k => ?_)
  · show V c main_v59 (((cfg2.win 0).blk t).view.emb (ix2 p k)) = _
    refine congrArg (V c main_v59) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 16 + 1 * k.val = k.val; omega
  · show V c main_v60 (((cfg2.win 1).blk t).view.emb (ix2 (0 : Fin 1) k)) = _
    refine congrArg (V c main_v60) (funext fun a => Fin.ext ?_)
    match a with
    | ⟨0, _⟩ => show win2_1.index t (0 : Fin 2) * 1 + 1 * 0 = 0; omega
    | ⟨1, _⟩ => show win2_1.index t (1 : Fin 2) * 16 + 1 * k.val = k.val; omega
  · show V c main_arg6 (((cfg2.win 2).blk t).view.emb (ix2 k q)) = _
    refine congrArg (V c main_arg6) (funext fun a => Fin.ext ?_)
    match a with
    | ⟨0, _⟩ => show win2_2.index t (0 : Fin 2) * 16 + 1 * k.val = k.val; omega
    | ⟨1, _⟩ => show win2_2.index t (1 : Fin 2) * 16 + 1 * q.val = win2_3.index t (1 : Fin 2) * 16 + 1 * q.val; omega

/-- An index of the result array is in point `t`'s block iff each coordinate is in the block's range on its axis. -/
theorem mem_block (t : Fin cfg2.N) (i : S100000x16.Idx) :
    i ∈ ((cfg2.win 3).blk t).view.set ↔ ∀ a : Fin 2, win2_3.index t a * S10000x16.size a ≤ (i a).val
      ∧ (i a).val < win2_3.index t a * S10000x16.size a + S10000x16.size a := by
  show i ∈ ((View.whole main_v61).slice (win2_3.rect t)).set ↔ _
  rw [View.set_slice_whole, Rect.mem_set_unit]
  exact Iff.rfl

/-- Row `i` lies in block `i / 10000`: the ten blocks fill the array. -/
theorem blocks_cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : grid2.N = 10 := N_2
  have hlt : (i 0).val / 10000 < grid2.N := by omega
  obtain ⟨-, -, -, -, -, -, e30, e31, -⟩ := block_index ⟨(i 0).val / 10000, hlt⟩
  refine ⟨⟨(i 0).val / 10000, hlt⟩, flush2_3 _, ?_⟩
  rw [mem_block]
  intro a
  match a with
  | ⟨0, _⟩ =>
    show win2_3.index ⟨(i 0).val / 10000, hlt⟩ (0 : Fin 2) * 10000 ≤ (i 0).val
      ∧ (i 0).val < win2_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win2_3.index ⟨(i 0).val / 10000, hlt⟩ (1 : Fin 2) * 16 ≤ (i 1).val
      ∧ (i 1).val < win2_3.index ⟨(i 0).val / 10000, hlt⟩ (1 : Fin 2) * 16 + 16
    omega

/-- After the layer its result array holds `result`. -/
theorem array_eq (c : Dev nD) : (dat2 V c).arrAt 3 cfg2.N = result V c :=
  (dat2 V c).arrAt_eq_of_cover 3 (result V c) (fun t _ => written_eq V c t) blocks_cover

end Cert.KernelIdeal.Hidden2

end
-- ==== Proof.Hidden3.lean ====
/-
  The fourth layer's hidden layer, as the array it leaves behind.

  The layer's kernel walks the 100000 node rows in ten blocks of 10000. At block `t` it sees rows
  `10000·t … 10000·t + 9999` of the aggregated features `a`, the whole bias row `b` and the whole weight matrix `W`,
  and writes rows `10000·t …` of the result. Entry `(r, q)` of what block `t` writes is
  `∑ₖ max(a(10000·t + r, k) + b(k), 0) · W(k, q)`: a row of the result reads the same row of `a` and nothing else. So every
  block is the restriction of ONE function of the three arrays, `Cert.Gcn.hid a b W`, and since row `i` lies in block
  `i / 10000` the ten blocks fill the array: after the layer the result array IS that function.
-/
import proofs.«138871_j38113539785257_1_alg».proof.Proof.Gen.KernelIdeal.Frame
import proofs.«138871_j38113539785257_1_alg».proof.Proof.Layers
import Idealize.ShloMosaic.Lib.Pipeline.Value
import Idealize.ShloMosaic.Lib.ValueIdx

set_option maxRecDepth 16384

noncomputable section

open scoped BigOperators

namespace Cert.KernelIdeal.Hidden3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer's result as one function of the three arrays the layer reads. -/
def result (c : Dev nD) : S100000x16.Idx → EReal :=
  Cert.Gcn.hid (M := 100000) (K := 16) (N := 16) (V c main_v73) (fun k => V c main_v74 (ix2 0 k)) (V c main_arg8)

/-- One block's arithmetic at entry `(p, q)`: the hidden-layer formula on the block's rows. -/
theorem body_apply (x0 : Vec Ideal S10000x16 .f32) (x1 : Vec Ideal S1x16 .f32) (x2 : Vec Ideal S16x16 .f32)
    (p : Fin 10000) (q : Fin 16) :
    k3_pay1 x0 x1 x2 (ix2 p q)
      = Cert.Gcn.hid (M := 10000) (K := 16) (N := 16) x0 (fun k => x1 (ix2 0 k)) x2 (ix2 p q) := by
  unfold k3_pay1
  exact Cert.Gcn.block_hid 10000 16 16 x0 x1 x2 _ _ _ _ p q

/-- Where each window's block sits at point `t`: the features and the result at row block `t`, the bias and the
    weights at the one block they have; and there are ten points. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- What point `t` writes back is block `t` of `result`. -/
theorem written_eq (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero zero_offsets]
  simp only [View.ld_unit_zero (S := S10000x16) zero_offsets, View.ld_unit_zero (S := S1x16) zero_offsets,
    View.ld_unit_zero (S := S16x16) zero_offsets]
  obtain ⟨e00, e01, e10, e11, e20, e21, e30, e31, -⟩ := block_index t
  funext j
  obtain ⟨p, q, rfl⟩ : ∃ (p : Fin 10000) (q : Fin 16), j = ix2 p q := ⟨j 0, j 1, eq_ix2 j⟩
  refine (body_apply (iblk3 V c 0 t) (iblk3 V c 1 t) (iblk3 V c 2 t) p q).trans ?_
  show _ = Cert.Gcn.hid (M := 100000) (K := 16) (N := 16) (V c main_v73) (fun k => V c main_v74 (ix2 0 k)) (V c main_arg8)
      (((cfg3.win 3).blk t).view.emb (ix2 p q))
  refine Cert.Gcn.hid_congr (fun k => ?_) (fun k => ?_) (fun k => ?_)
  · show V c main_v73 (((cfg3.win 0).blk t).view.emb (ix2 p k)) = _
    refine congrArg (V c main_v73) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 16 + 1 * k.val = k.val; omega
  · show V c main_v74 (((cfg3.win 1).blk t).view.emb (ix2 (0 : Fin 1) k)) = _
    refine congrArg (V c main_v74) (funext fun a => Fin.ext ?_)
    match a with
    | ⟨0, _⟩ => show win3_1.index t (0 : Fin 2) * 1 + 1 * 0 = 0; omega
    | ⟨1, _⟩ => show win3_1.index t (1 : Fin 2) * 16 + 1 * k.val = k.val; omega
  · show V c main_arg8 (((cfg3.win 2).blk t).view.emb (ix2 k q)) = _
    refine congrArg (V c main_arg8) (funext fun a => Fin.ext ?_)
    match a with
    | ⟨0, _⟩ => show win3_2.index t (0 : Fin 2) * 16 + 1 * k.val = k.val; omega
    | ⟨1, _⟩ => show win3_2.index t (1 : Fin 2) * 16 + 1 * q.val = win3_3.index t (1 : Fin 2) * 16 + 1 * q.val; omega

/-- An index of the result array is in point `t`'s block iff each coordinate is in the block's range on its axis. -/
theorem mem_block (t : Fin cfg3.N) (i : S100000x16.Idx) :
    i ∈ ((cfg3.win 3).blk t).view.set ↔ ∀ a : Fin 2, win3_3.index t a * S10000x16.size a ≤ (i a).val
      ∧ (i a).val < win3_3.index t a * S10000x16.size a + S10000x16.size a := by
  show i ∈ ((View.whole main_v75).slice (win3_3.rect t)).set ↔ _
  rw [View.set_slice_whole, Rect.mem_set_unit]
  exact Iff.rfl

/-- Row `i` lies in block `i / 10000`: the ten blocks fill the array. -/
theorem blocks_cover (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  have hN : grid3.N = 10 := N_3
  have hlt : (i 0).val / 10000 < grid3.N := by omega
  obtain ⟨-, -, -, -, -, -, e30, e31, -⟩ := block_index ⟨(i 0).val / 10000, hlt⟩
  refine ⟨⟨(i 0).val / 10000, hlt⟩, flush3_3 _, ?_⟩
  rw [mem_block]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win3_3.index ⟨(i 0).val / 10000, hlt⟩ (1 : Fin 2) * 16 ≤ (i 1).val
      ∧ (i 1).val < win3_3.index ⟨(i 0).val / 10000, hlt⟩ (1 : Fin 2) * 16 + 16
    omega

/-- After the layer its result array holds `result`. -/
theorem array_eq (c : Dev nD) : (dat3 V c).arrAt 3 cfg3.N = result V c :=
  (dat3 V c).arrAt_eq_of_cover 3 (result V c) (fun t _ => written_eq V c t) blocks_cover

end Cert.KernelIdeal.Hidden3

end
-- ==== Proof.ReadOut.lean ====
/-
  The read-out, as the array it leaves behind.

  The kernel walks the 100000 node rows in ten blocks of 10000. At block `t` it sees rows `10000·t … 10000·t + 9999` of
  the last aggregated features `a`, the whole bias row `b`, the whole weight column `w` and the one-entry array `c`, and
  writes the same rows of a one-column result: entry `r` of what block `t` writes is
  `σ(∑ₖ (a(10000·t + r, k) + b(k)) · w(k) + c)` with `σ(s) = 1 / (1 + e^(−s))`. Every block is the restriction of ONE
  function of the four arrays, `Cert.Gcn.out a b w c`, and since row `i` lies in block `i / 10000` the ten blocks fill the
  column: after the kernel the result array IS that function.
-/
import proofs.«138871_j38113539785257_1_alg».proof.Proof.Gen.KernelIdeal.Frame
import proofs.«138871_j38113539785257_1_alg».proof.Proof.Layers
import Idealize.ShloMosaic.Lib.Pipeline.Value
import Idealize.ShloMosaic.Lib.ValueIdx

set_option maxRecDepth 16384

noncomputable section

open scoped BigOperators

namespace Cert.KernelIdeal.ReadOut

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The kernel's result as one function of the four arrays it reads. -/
def result (c : Dev nD) : S100000x1.Idx → EReal :=
  Cert.Gcn.out (M := 100000) (K := 16) (V c main_v87) (fun k => V c main_v88 (ix2 0 k)) (V c main_arg10)
    (V c main_v89 (ix2 0 0))

/-- One block's arithmetic at entry `(p, q)`: the read-out formula on the block's rows. -/
theorem body_apply (x0 : Vec Ideal S10000x16 .f32) (x1 : Vec Ideal S1x16 .f32) (x2 : Vec Ideal S16x1 .f32)
    (x3 : Vec Ideal S1x1 .f32) (p : Fin 10000) (q : Fin 1) :
    k4_pay1 x0 x1 x2 x3 (ix2 p q)
      = Cert.Gcn.out (M := 10000) (K := 16) x0 (fun k => x1 (ix2 0 k)) x2 (x3 (ix2 0 0)) (ix2 p q) := by
  unfold k4_pay1
  exact Cert.Gcn.block_out 10000 16 x0 x1 x2 x3 _ _ _ _ _ _ p q

/-- Where each window's block sits at point `t`: the features and the result at row block `t`, the bias, the weights
    and the scalar at the one block they have; and there are ten points. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 ∧ t.val < 10 :=
  (by decide +kernel : ∀ t : Fin grid4.N, _)

/-- What point `t` writes back is block `t` of `result`. -/
theorem written_eq (c : Dev nD) (t : Fin cfg4.N) :
    (dat4 V c).flushed 4 t = ((cfg4.win 4).blk t).view.read (Elt Ideal) (result V c) := by
  show (cfg4.win 4).cut (grid4.coords t) ((dat4 V c).after 4 t) = _
  rw [after4_4]
  unfold out4_4
  rw [View.canon_unit_zero zero_offsets]
  simp only [View.ld_unit_zero (S := S10000x16) zero_offsets, View.ld_unit_zero (S := S1x16) zero_offsets,
    View.ld_unit_zero (S := S16x1) zero_offsets, View.ld_unit_zero (S := S1x1) zero_offsets]
  obtain ⟨e00, e01, e10, e11, e20, e21, e30, e31, e40, e41, -⟩ := block_index t
  funext j
  obtain ⟨p, q, rfl⟩ : ∃ (p : Fin 10000) (q : Fin 1), j = ix2 p q := ⟨j 0, j 1, eq_ix2 j⟩
  refine (body_apply (iblk4 V c 0 t) (iblk4 V c 1 t) (iblk4 V c 2 t) (iblk4 V c 3 t) p q).trans ?_
  show _ = Cert.Gcn.out (M := 100000) (K := 16) (V c main_v87) (fun k => V c main_v88 (ix2 0 k)) (V c main_arg10)
      (V c main_v89 (ix2 0 0)) (((cfg4.win 4).blk t).view.emb (ix2 p q))
  refine Cert.Gcn.out_congr (fun k => ?_) (fun k => ?_) (fun k => ?_) ?_
  · show V c main_v87 (((cfg4.win 0).blk t).view.emb (ix2 p k)) = _
    refine congrArg (V c main_v87) (funext fun a => Fin.ext ?_)
    match a with
    | ⟨0, _⟩ => show win4_0.index t (0 : Fin 2) * 10000 + 1 * p.val = win4_4.index t (0 : Fin 2) * 10000 + 1 * p.val; omega
    | ⟨1, _⟩ => show win4_0.index t (1 : Fin 2) * 16 + 1 * k.val = k.val; omega
  · show V c main_v88 (((cfg4.win 1).blk t).view.emb (ix2 (0 : Fin 1) k)) = _
    refine congrArg (V c main_v88) (funext fun a => Fin.ext ?_)
    match a with
    | ⟨0, _⟩ => show win4_1.index t (0 : Fin 2) * 1 + 1 * 0 = 0; omega
    | ⟨1, _⟩ => show win4_1.index t (1 : Fin 2) * 16 + 1 * k.val = k.val; omega
  · show V c main_arg10 (((cfg4.win 2).blk t).view.emb (ix2 k (0 : Fin 1))) = _
    refine congrArg (V c main_arg10) (funext fun a => Fin.ext ?_)
    match a with
    | ⟨0, _⟩ => show win4_2.index t (0 : Fin 2) * 16 + 1 * k.val = k.val; omega
    | ⟨1, _⟩ => show win4_2.index t (1 : Fin 2) * 1 + 1 * 0 = 0; omega
  · show V c main_v89 (((cfg4.win 3).blk t).view.emb (ix2 (0 : Fin 1) (0 : Fin 1))) = _
    refine congrArg (V c main_v89) (funext fun a => Fin.ext ?_)
    match a with
    | ⟨0, _⟩ => show win4_3.index t (0 : Fin 2) * 1 + 1 * 0 = 0; omega
    | ⟨1, _⟩ => show win4_3.index t (1 : Fin 2) * 1 + 1 * 0 = 0; omega

/-- An index of the result array is in point `t`'s block iff each coordinate is in the block's range on its axis. -/
theorem mem_block (t : Fin cfg4.N) (i : S100000x1.Idx) :
    i ∈ ((cfg4.win 4).blk t).view.set ↔ ∀ a : Fin 2, win4_4.index t a * S10000x1.size a ≤ (i a).val
      ∧ (i a).val < win4_4.index t a * S10000x1.size a + S10000x1.size a := by
  show i ∈ ((View.whole main_v90).slice (win4_4.rect t)).set ↔ _
  rw [View.set_slice_whole, Rect.mem_set_unit]
  exact Iff.rfl

/-- Row `i` lies in block `i / 10000`: the ten blocks fill the column. -/
theorem blocks_cover (i : S100000x1.Idx) :
    ∃ t : Fin cfg4.N, (cfg4.win 4).flush t = true ∧ i ∈ ((cfg4.win 4).blk t).view.set := by
  have hi0 : (i 0).val < 100000 := (i 0).isLt
  have hi1 : (i 1).val < 1 := (i 1).isLt
  have hN : grid4.N = 10 := N_4
  have hlt : (i 0).val / 10000 < grid4.N := by omega
  obtain ⟨-, -, -, -, -, -, -, -, e40, e41, -⟩ := block_index ⟨(i 0).val / 10000, hlt⟩
  refine ⟨⟨(i 0).val / 10000, hlt⟩, flush4_4 _, ?_⟩
  rw [mem_block]
  intro a
  match a with
  | ⟨0, _⟩ =>
    show win4_4.index ⟨(i 0).val / 10000, hlt⟩ (0 : Fin 2) * 10000 ≤ (i 0).val
      ∧ (i 0).val < win4_4.index ⟨(i 0).val / 10000, hlt⟩ (0 : Fin 2) * 10000 + 10000
    rw [e40]
    show (i 0).val / 10000 * 10000 ≤ (i 0).val ∧ (i 0).val < (i 0).val / 10000 * 10000 + 10000
    omega
  | ⟨1, _⟩ =>
    show win4_4.index ⟨(i 0).val / 10000, hlt⟩ (1 : Fin 2) * 1 ≤ (i 1).val
      ∧ (i 1).val < win4_4.index ⟨(i 0).val / 10000, hlt⟩ (1 : Fin 2) * 1 + 1
    omega

/-- After the kernel its result array holds `result`. -/
theorem array_eq (c : Dev nD) : (dat4 V c).arrAt 4 cfg4.N = result V c :=
  (dat4 V c).arrAt_eq_of_cover 4 (result V c) (fun t _ => written_eq V c t) blocks_cover

end Cert.KernelIdeal.ReadOut

end
-- ==== Proof.Graph.lean ====
/-
  The graph's side of a convolution layer: who sends to whom, and with what weight.

  The edge list `ei` holds 3200000 edges as a row of sources over a row of destinations. Every node also sends to
  itself, so both rows are extended by the 100000 node numbers (`srcCat`, `dstCat`: 3300000 entries each). A node's
  degree is the number of edges arriving at it (`deg`: ones summed at the destinations), its factor is `deg^(-1/2)`
  where the degree is positive and `0` elsewhere (`dinv`), and an edge's weight is the product of its two ends'
  factors (`nrm1`, one column). An index below zero is read from the end of the array (`wrap`: 100000 is added).

  One layer's aggregation of a `100000 × 16` array `X` of node features then is: take row `src(e)` of `X` for every edge
  `e`, scale it by the edge's weight, and add it into row `dst(e)` of an array that starts at zero (`aggWith`, `agg`).
  Nothing here is computed or simplified: the definitions only NAME these pieces, so that two programs that spell
  them out operation by operation can be compared one layer at a time.
-/
import proofs.«138871_j38113539785257_1_alg».proof.ReferenceIdeal
import proofs.«138871_j38113539785257_1_alg».proof.Proof.Gen.ReferenceIdeal
import Idealize.ShloMosaic.PureOps.Ideal

set_option maxRecDepth 16384

noncomputable section

namespace Cert.Graph

open Idealize.ShloMosaic Cert.ReferenceIdeal Cert.ReferenceIdeal.Gen

variable {F : FTy → Type} [FloatOps F]

/-- The sources of all 3300000 messages: the edge list's first row, then every node once. -/
def srcCat (ei : IVec S2x3200000 32) : IVec S3300000 32 :=
  (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)

/-- The destinations of all 3300000 messages: the edge list's second row, then every node once. -/
def dstCat (ei : IVec S2x3200000 32) : IVec S3300000 32 :=
  (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)

/-- An index below zero counts from the end: 100000 is added to it. -/
def wrap (s : IVec S3300000 32) : IVec S3300000 32 :=
  select (cmpi .slt s (broadcastInDim S3300000 ![] bcast_S_S3300000 (constantI S_ 32 0#32))) (addi s (broadcastInDim S3300000 ![] bcast_S_S3300000 (constantI S_ 32 100000#32))) s

/-- A node's degree: one for every message arriving at it. -/
def deg (ei : IVec S2x3200000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstCat ei)) (broadcastInDim S3300000 ![] bcast_S_S3300000 (constant S_ .f32 0x3F800000#32))

/-- A node's factor: `deg^(-1/2)` where the degree is positive, zero elsewhere. -/
def dinv (ei : IVec S2x3200000 32) : FVec F S100000 .f32 :=
  select (cmpf (F := F) .ogt (deg (F := F) ei) (broadcastInDim S100000 ![] bcast_S_S100000 (constant S_ .f32 0x00000000#32))) (Host.rsqrt (deg (F := F) ei)) (broadcastInDim S100000 ![] bcast_S_S100000 (id (constant S_ .f32 0x00000000#32)))

/-- A message's weight, as one column: the product of its two ends' factors. -/
def nrm1 (ei : IVec S2x3200000 32) : FVec F S3300000x1 .f32 :=
  broadcastInDim S3300000x1 ![0] bcast_S3300000_S3300000x1_0 (mulf (Host.gather gather_S100000_S3300000x1_S3300000_n_0_n_n_0_1_1 (dinv (F := F) ei) (broadcastInDim S3300000x1 ![0] bcast_S3300000_S3300000x1_0 (wrap (srcCat ei)))) (Host.gather gather_S100000_S3300000x1_S3300000_n_0_n_n_0_1_1 (dinv (F := F) ei) (broadcastInDim S3300000x1 ![0] bcast_S3300000_S3300000x1_0 (wrap (dstCat ei)))))

/-- One aggregation, from the three graph arrays as given: rows gathered at the (wrapped) sources, scaled by the
    weights, summed into the destinations' rows of a zero array. -/
def aggWith (s d : IVec S3300000 32) (n : FVec F S3300000x1 .f32) (X : FVec F S100000x16 .f32) : FVec F S100000x16 .f32 :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 X (broadcastInDim S3300000x1 ![0] bcast_S3300000_S3300000x1_0 (wrap s))) (broadcastInDim S3300000x16 ![0, 1] bcast_S3300000x1_S3300000x16_0_1 n))

/-- One aggregation, from the edge list. -/
def agg (ei : IVec S2x3200000 32) (X : FVec F S100000x16 .f32) : FVec F S100000x16 .f32 :=
  aggWith (srcCat ei) (dstCat ei) (nrm1 (F := F) ei) X

end Cert.Graph

end
-- ==== Proof.Fold.lean ====
/-
  The program's result is the network's formula.

  The fold of buffer contents through the thirteen stretches is read one stretch at a time. Before the first kernel
  the host computes, from the edge list alone, the three graph arrays: all messages' sources, their destinations and
  their weights (`Cert.Graph.srcCat`, `dstCat`, `nrm1`). Each kernel leaves its dense step of the array it was given
  (the modules `First`, `Hidden1`…`Hidden3`, `ReadOut`); each stretch between two kernels gathers, scales and sums the
  rows of the array the kernel before it left with those same three graph arrays, which no stretch in between has
  touched (`Keep`), and reshapes the next bias vector to a row. Substituting each stretch's value into the next gives
  the result buffer as `Cert.Gcn.net` of the twelve arguments with `Cert.Graph.agg` of the edge list as the
  aggregation, reshaped from one column to a vector.
-/
import proofs.«138871_j38113539785257_1_alg».proof.Proof.Keep
import proofs.«138871_j38113539785257_1_alg».proof.Proof.First
import proofs.«138871_j38113539785257_1_alg».proof.Proof.Hidden1
import proofs.«138871_j38113539785257_1_alg».proof.Proof.Hidden2
import proofs.«138871_j38113539785257_1_alg».proof.Proof.Hidden3
import proofs.«138871_j38113539785257_1_alg».proof.Proof.ReadOut
import proofs.«138871_j38113539785257_1_alg».proof.Proof.Graph
import proofs.«138871_j38113539785257_1_alg».proof.Proof.Layers
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Before the first kernel: the three graph arrays, from the edge list alone

The host prepares them in three short stretches: the index vectors, the degrees and their comparison and inverse square
root (first stretch); the factor `dinv` chosen between the two (second stretch, a called function); the two gathers, the
product and its reshaping to a column (third stretch). Each stretch is read back from the contents at its entry. -/

theorem src_is1 : W1 m ρ c (Proc.devRef .tc main_v5) = Cert.Graph.srcCat (m ((c : Thread nD τ).loc main_arg1)) := by
  show StableHlo.after hostOps0 (W0 m ρ c) (Proc.devRef .tc main_v5) = _
  after_results_simp
  rfl

theorem dst_is1 : W1 m ρ c (Proc.devRef .tc main_v6) = Cert.Graph.dstCat (m ((c : Thread nD τ).loc main_arg1)) := by
  show StableHlo.after hostOps0 (W0 m ρ c) (Proc.devRef .tc main_v6) = _
  after_results_simp
  rfl

theorem positive_is1 : W1 m ρ c (Proc.devRef .tc main_v12)
    = cmpf (F := Ideal) .ogt (Cert.Graph.deg (F := Ideal) (m ((c : Thread nD τ).loc main_arg1))) (broadcastInDim S100000 ![] bcast_S_S100000 (constant S_ .f32 0x00000000#32)) := by
  show StableHlo.after hostOps0 (W0 m ρ c) (Proc.devRef .tc main_v12) = _
  after_results_simp
  rfl

theorem rsqrt_is1 : W1 m ρ c (Proc.devRef .tc main_v13) = Host.rsqrt (Cert.Graph.deg (F := Ideal) (m ((c : Thread nD τ).loc main_arg1))) := by
  show StableHlo.after hostOps0 (W0 m ρ c) (Proc.devRef .tc main_v13) = _
  after_results_simp
  rfl

theorem zero_is1 : W1 m ρ c (Proc.devRef .tc main_cst_2) = constant (F := Ideal) S_ .f32 0x00000000#32 := by
  show StableHlo.after hostOps0 (W0 m ρ c) (Proc.devRef .tc main_cst_2) = _
  after_results_simp

/-- The called function, for any contents at its entry: it selects, node by node, between its second operand and
    its third broadcast, by its first. -/
theorem where_any (V1 : Valuation τ sig (Elt Ideal)) :
    StableHlo.after hostOps0_1 V1 (Proc.devRef .tc main_v14)
      = select (V1 (Proc.devRef .tc main_v12)) (V1 (Proc.devRef .tc main_v13))
          (broadcastInDim S100000 ![] bcast_S_S100000 (id (V1 (Proc.devRef .tc main_cst_2)))) := rfl

theorem dinv_is2 : W2 m ρ c (Proc.devRef .tc main_v14) = Cert.Graph.dinv (F := Ideal) (m ((c : Thread nD τ).loc main_arg1)) := by
  show StableHlo.after hostOps0_1 (W1 m ρ c) (Proc.devRef .tc main_v14) = _
  rw [where_any (W1 m ρ c), positive_is1 m ρ c, rsqrt_is1 m ρ c, zero_is1 m ρ c]
  rfl

theorem src_is2 : W2 m ρ c (Proc.devRef .tc main_v5) = Cert.Graph.srcCat (m ((c : Thread nD τ).loc main_arg1)) :=
  (by host_keeps hostOps0_1 : W2 m ρ c (Proc.devRef .tc main_v5) = W1 m ρ c (Proc.devRef .tc main_v5)).trans (src_is1 m ρ c)

theorem dst_is2 : W2 m ρ c (Proc.devRef .tc main_v6) = Cert.Graph.dstCat (m ((c : Thread nD τ).loc main_arg1)) :=
  (by host_keeps hostOps0_1 : W2 m ρ c (Proc.devRef .tc main_v6) = W1 m ρ c (Proc.devRef .tc main_v6)).trans (dst_is1 m ρ c)

theorem src_is : W3 m ρ c (Proc.devRef .tc main_v5) = Cert.Graph.srcCat (m ((c : Thread nD τ).loc main_arg1)) :=
  (by host_keeps hostOps0_2 : W3 m ρ c (Proc.devRef .tc main_v5) = W2 m ρ c (Proc.devRef .tc main_v5)).trans (src_is2 m ρ c)

theorem dst_is : W3 m ρ c (Proc.devRef .tc main_v6) = Cert.Graph.dstCat (m ((c : Thread nD τ).loc main_arg1)) :=
  (by host_keeps hostOps0_2 : W3 m ρ c (Proc.devRef .tc main_v6) = W2 m ρ c (Proc.devRef .tc main_v6)).trans (dst_is2 m ρ c)

theorem nrm_is : W3 m ρ c (Proc.devRef .tc main_v30) = Cert.Graph.nrm1 (F := Ideal) (m ((c : Thread nD τ).loc main_arg1)) := by
  have h14 := dinv_is2 m ρ c
  have h5 := src_is2 m ρ c
  have h6 := dst_is2 m ρ c
  show StableHlo.after hostOps0_2 (W2 m ρ c) (Proc.devRef .tc main_v30) = _
  generalize W2 m ρ c = V2 at h14 h5 h6 ⊢
  after_results_simp
  rw [h14, h5, h6]
  rfl

/-! ## Between the kernels: one aggregation each, and the next bias as a row -/

/-- Aggregation 1: the stretch's operations, read back, are `Cert.Graph.aggWith` of the three graph arrays and the
    array the kernel before it left. -/
theorem agg_at5 : W5 m ρ c (Proc.devRef .tc main_v45)
    = Cert.Graph.aggWith (F := Ideal) (W4 m ρ c (Proc.devRef .tc main_v5)) (W4 m ρ c (Proc.devRef .tc main_v6)) (W4 m ρ c (Proc.devRef .tc main_v30)) (W4 m ρ c (Proc.devRef .tc main_v33)) := by
  show StableHlo.after hostOps1 (W4 m ρ c) (Proc.devRef .tc main_v45) = _
  after_results_simp
  rfl
/-- The same stretch reshapes a bias vector to the one-row array the next kernel reads. -/
theorem reshaped_v46 : W5 m ρ c (Proc.devRef .tc main_v46) = shapeCast S1x16 (W4 m ρ c (Proc.devRef .tc main_arg3)) shapeCasts_S16_S1x16 := by
  show StableHlo.after hostOps1 (W4 m ρ c) (Proc.devRef .tc main_v46) = _
  after_results_simp
  rfl
/-- Aggregation 2: the stretch's operations, read back, are `Cert.Graph.aggWith` of the three graph arrays and the
    array the kernel before it left. -/
theorem agg_at7 : W7 m ρ c (Proc.devRef .tc main_v59)
    = Cert.Graph.aggWith (F := Ideal) (W6 m ρ c (Proc.devRef .tc main_v5)) (W6 m ρ c (Proc.devRef .tc main_v6)) (W6 m ρ c (Proc.devRef .tc main_v30)) (W6 m ρ c (Proc.devRef .tc main_v47)) := by
  show StableHlo.after hostOps2 (W6 m ρ c) (Proc.devRef .tc main_v59) = _
  after_results_simp
  rfl
/-- The same stretch reshapes a bias vector to the one-row array the next kernel reads. -/
theorem reshaped_v60 : W7 m ρ c (Proc.devRef .tc main_v60) = shapeCast S1x16 (W6 m ρ c (Proc.devRef .tc main_arg5)) shapeCasts_S16_S1x16 := by
  show StableHlo.after hostOps2 (W6 m ρ c) (Proc.devRef .tc main_v60) = _
  after_results_simp
  rfl
/-- Aggregation 3: the stretch's operations, read back, are `Cert.Graph.aggWith` of the three graph arrays and the
    array the kernel before it left. -/
theorem agg_at9 : W9 m ρ c (Proc.devRef .tc main_v73)
    = Cert.Graph.aggWith (F := Ideal) (W8 m ρ c (Proc.devRef .tc main_v5)) (W8 m ρ c (Proc.devRef .tc main_v6)) (W8 m ρ c (Proc.devRef .tc main_v30)) (W8 m ρ c (Proc.devRef .tc main_v61)) := by
  show StableHlo.after hostOps3 (W8 m ρ c) (Proc.devRef .tc main_v73) = _
  after_results_simp
  rfl
/-- The same stretch reshapes a bias vector to the one-row array the next kernel reads. -/
theorem reshaped_v74 : W9 m ρ c (Proc.devRef .tc main_v74) = shapeCast S1x16 (W8 m ρ c (Proc.devRef .tc main_arg7)) shapeCasts_S16_S1x16 := by
  show StableHlo.after hostOps3 (W8 m ρ c) (Proc.devRef .tc main_v74) = _
  after_results_simp
  rfl
/-- Aggregation 4: the stretch's operations, read back, are `Cert.Graph.aggWith` of the three graph arrays and the
    array the kernel before it left. -/
theorem agg_at11 : W11 m ρ c (Proc.devRef .tc main_v87)
    = Cert.Graph.aggWith (F := Ideal) (W10 m ρ c (Proc.devRef .tc main_v5)) (W10 m ρ c (Proc.devRef .tc main_v6)) (W10 m ρ c (Proc.devRef .tc main_v30)) (W10 m ρ c (Proc.devRef .tc main_v75)) := by
  show StableHlo.after hostOps4 (W10 m ρ c) (Proc.devRef .tc main_v87) = _
  after_results_simp
  rfl
/-- The same stretch reshapes a bias vector to the one-row array the next kernel reads. -/
theorem reshaped_v88 : W11 m ρ c (Proc.devRef .tc main_v88) = shapeCast S1x16 (W10 m ρ c (Proc.devRef .tc main_arg9)) shapeCasts_S16_S1x16 := by
  show StableHlo.after hostOps4 (W10 m ρ c) (Proc.devRef .tc main_v88) = _
  after_results_simp
  rfl
/-- The same stretch reshapes a bias vector to the one-row array the next kernel reads. -/
theorem reshaped_v89 : W11 m ρ c (Proc.devRef .tc main_v89) = shapeCast S1x1 (W10 m ρ c (Proc.devRef .tc main_arg11)) shapeCasts_S1_S1x1 := by
  show StableHlo.after hostOps4 (W10 m ρ c) (Proc.devRef .tc main_v89) = _
  after_results_simp
  rfl

/-- The last stretch reshapes the read-out's one column to the result vector. -/
theorem reshaped_v91 : W13 m ρ c (Proc.devRef .tc main_v91) = shapeCast S100000 (W12 m ρ c (Proc.devRef .tc main_v90)) shapeCasts_S100000x1_S100000 := by
  show StableHlo.after hostOps5 (W12 m ρ c) (Proc.devRef .tc main_v91) = _
  after_results_simp
  rfl

/-! ## The kernels: each leaves its dense step of the arrays it finds -/

theorem first_at4 : W4 m ρ c (Proc.devRef .tc main_v33)
    = Cert.Gcn.lin (M := 100000) (K := 48) (N := 16) (W3 m ρ c (Proc.devRef .tc main_arg0)) (W3 m ρ c (Proc.devRef .tc main_arg2)) :=
  (W4_arr m ρ c 3).trans (First.array_eq (V3 m ρ) c)
theorem hidden_at6 : W6 m ρ c (Proc.devRef .tc main_v47)
    = Cert.Gcn.hid (M := 100000) (K := 16) (N := 16) (W5 m ρ c (Proc.devRef .tc main_v45)) (Cert.Gcn.row (W5 m ρ c (Proc.devRef .tc main_v46))) (W5 m ρ c (Proc.devRef .tc main_arg4)) :=
  (W6_arr m ρ c 3).trans (Hidden1.array_eq (V5 m ρ) c)

theorem hidden_at8 : W8 m ρ c (Proc.devRef .tc main_v61)
    = Cert.Gcn.hid (M := 100000) (K := 16) (N := 16) (W7 m ρ c (Proc.devRef .tc main_v59)) (Cert.Gcn.row (W7 m ρ c (Proc.devRef .tc main_v60))) (W7 m ρ c (Proc.devRef .tc main_arg6)) :=
  (W8_arr m ρ c 3).trans (Hidden2.array_eq (V7 m ρ) c)

theorem hidden_at10 : W10 m ρ c (Proc.devRef .tc main_v75)
    = Cert.Gcn.hid (M := 100000) (K := 16) (N := 16) (W9 m ρ c (Proc.devRef .tc main_v73)) (Cert.Gcn.row (W9 m ρ c (Proc.devRef .tc main_v74))) (W9 m ρ c (Proc.devRef .tc main_arg8)) :=
  (W10_arr m ρ c 3).trans (Hidden3.array_eq (V9 m ρ) c)

theorem readout_at12 : W12 m ρ c (Proc.devRef .tc main_v90)
    = Cert.Gcn.out (M := 100000) (K := 16) (W11 m ρ c (Proc.devRef .tc main_v87)) (Cert.Gcn.row (W11 m ρ c (Proc.devRef .tc main_v88))) (W11 m ρ c (Proc.devRef .tc main_arg10))
        (Cert.Gcn.row (W11 m ρ c (Proc.devRef .tc main_v89)) (0 : Fin 1)) :=
  (W12_arr m ρ c 4).trans (ReadOut.array_eq (V11 m ρ) c)

/-! ## The layers, substituted one into the next -/

theorem layer1 : W4 m ρ c (Proc.devRef .tc main_v33) = (Cert.Gcn.lin (M := 100000) (K := 48) (N := 16) (m ((c : Thread nD τ).loc main_arg0)) (m ((c : Thread nD τ).loc main_arg2))) := by
  rw [first_at4 m ρ c, arg0_at3 m ρ c, arg2_at3 m ρ c]

theorem aggregated1 : W5 m ρ c (Proc.devRef .tc main_v45) = (Cert.Graph.agg (F := Ideal) (m ((c : Thread nD τ).loc main_arg1)) (Cert.Gcn.lin (M := 100000) (K := 48) (N := 16) (m ((c : Thread nD τ).loc main_arg0)) (m ((c : Thread nD τ).loc main_arg2)))) := by
  rw [agg_at5 m ρ c, src_at4 m ρ c, dst_at4 m ρ c, nrm_at4 m ρ c, src_is m ρ c, dst_is m ρ c, nrm_is m ρ c, layer1 m ρ c]
  rfl
theorem bias1 : Cert.Gcn.row (W5 m ρ c (Proc.devRef .tc main_v46)) = Cert.Gcn.vec (m ((c : Thread nD τ).loc main_arg3)) := by
  rw [reshaped_v46 m ρ c, arg3_at4 m ρ c]
  exact Cert.Gcn.row_shapeCast _ _
theorem layer2 : W6 m ρ c (Proc.devRef .tc main_v47) = (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4))) := by
  rw [hidden_at6 m ρ c, aggregated1 m ρ c, bias1 m ρ c, arg4_at5 m ρ c]

theorem aggregated2 : W7 m ρ c (Proc.devRef .tc main_v59) = (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4)))) := by
  rw [agg_at7 m ρ c, src_at6 m ρ c, dst_at6 m ρ c, nrm_at6 m ρ c, src_is m ρ c, dst_is m ρ c, nrm_is m ρ c, layer2 m ρ c]
  rfl
theorem bias2 : Cert.Gcn.row (W7 m ρ c (Proc.devRef .tc main_v60)) = Cert.Gcn.vec (m ((c : Thread nD τ).loc main_arg5)) := by
  rw [reshaped_v60 m ρ c, arg5_at6 m ρ c]
  exact Cert.Gcn.row_shapeCast _ _
theorem layer3 : W8 m ρ c (Proc.devRef .tc main_v61) = (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4)))) (Cert.Gcn.vec (m ((c : Thread nD τ).loc main_arg5))) (m ((c : Thread nD τ).loc main_arg6))) := by
  rw [hidden_at8 m ρ c, aggregated2 m ρ c, bias2 m ρ c, arg6_at7 m ρ c]

theorem aggregated3 : W9 m ρ c (Proc.devRef .tc main_v73) = (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4)))) (Cert.Gcn.vec (m ((c : Thread nD τ).loc main_arg5))) (m ((c : Thread nD τ).loc main_arg6)))) := by
  rw [agg_at9 m ρ c, src_at8 m ρ c, dst_at8 m ρ c, nrm_at8 m ρ c, src_is m ρ c, dst_is m ρ c, nrm_is m ρ c, layer3 m ρ c]
  rfl
theorem bias3 : Cert.Gcn.row (W9 m ρ c (Proc.devRef .tc main_v74)) = Cert.Gcn.vec (m ((c : Thread nD τ).loc main_arg7)) := by
  rw [reshaped_v74 m ρ c, arg7_at8 m ρ c]
  exact Cert.Gcn.row_shapeCast _ _
theorem layer4 : W10 m ρ c (Proc.devRef .tc main_v75) = (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4)))) (Cert.Gcn.vec (m ((c : Thread nD τ).loc main_arg5))) (m ((c : Thread nD τ).loc main_arg6)))) (Cert.Gcn.vec (m ((c : Thread nD τ).loc main_arg7))) (m ((c : Thread nD τ).loc main_arg8))) := by
  rw [hidden_at10 m ρ c, aggregated3 m ρ c, bias3 m ρ c, arg8_at9 m ρ c]

theorem aggregated4 : W11 m ρ c (Proc.devRef .tc main_v87) = (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4)))) (Cert.Gcn.vec (m ((c : Thread nD τ).loc main_arg5))) (m ((c : Thread nD τ).loc main_arg6)))) (Cert.Gcn.vec (m ((c : Thread nD τ).loc main_arg7))) (m ((c : Thread nD τ).loc main_arg8)))) := by
  rw [agg_at11 m ρ c, src_at10 m ρ c, dst_at10 m ρ c, nrm_at10 m ρ c, src_is m ρ c, dst_is m ρ c, nrm_is m ρ c, layer4 m ρ c]
  rfl
theorem bias4 : Cert.Gcn.row (W11 m ρ c (Proc.devRef .tc main_v88)) = Cert.Gcn.vec (m ((c : Thread nD τ).loc main_arg9)) := by
  rw [reshaped_v88 m ρ c, arg9_at10 m ρ c]
  exact Cert.Gcn.row_shapeCast _ _
theorem bias5 : Cert.Gcn.row (W11 m ρ c (Proc.devRef .tc main_v89)) = Cert.Gcn.vec (m ((c : Thread nD τ).loc main_arg11)) := by
  rw [reshaped_v89 m ρ c, arg11_at10 m ρ c]
  exact Cert.Gcn.row_shapeCast _ _
theorem column : W12 m ρ c (Proc.devRef .tc main_v90) = (Cert.Gcn.out (M := 100000) (K := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.hid (M := 100000) (K := 16) (N := 16) (Cert.Graph.agg (F := Ideal) (m ((c : Thread nD τ).loc main_arg1)) (Cert.Gcn.lin (M := 100000) (K := 48) (N := 16) (m ((c : Thread nD τ).loc main_arg0)) (m ((c : Thread nD τ).loc main_arg2)))) (Cert.Gcn.vec (m ((c : Thread nD τ).loc main_arg3))) (m ((c : Thread nD τ).loc main_arg4)))) (Cert.Gcn.vec (m ((c : Thread nD τ).loc main_arg5))) (m ((c : Thread nD τ).loc main_arg6)))) (Cert.Gcn.vec (m ((c : Thread nD τ).loc main_arg7))) (m ((c : Thread nD τ).loc main_arg8)))) (Cert.Gcn.vec (m ((c : Thread nD τ).loc main_arg9))) (m ((c : Thread nD τ).loc main_arg10)) (Cert.Gcn.vec (m ((c : Thread nD τ).loc main_arg11)) (0 : Fin 1))) := by
  rw [readout_at12 m ρ c, aggregated4 m ρ c, bias4 m ρ c, bias5 m ρ c, arg10_at11 m ρ c]

/-- THE RESULT: node `p`'s entry of the result buffer is the network's formula at `p`. -/
theorem result_eq : W13 m ρ c (Proc.devRef .tc main_v91)
    = fun i => Cert.Gcn.net (Cert.Graph.agg (F := Ideal) (m ((c : Thread nD τ).loc main_arg1))) (m ((c : Thread nD τ).loc main_arg0)) (m ((c : Thread nD τ).loc main_arg2)) (Cert.Gcn.vec (m ((c : Thread nD τ).loc main_arg3))) (m ((c : Thread nD τ).loc main_arg4))
        (Cert.Gcn.vec (m ((c : Thread nD τ).loc main_arg5))) (m ((c : Thread nD τ).loc main_arg6)) (Cert.Gcn.vec (m ((c : Thread nD τ).loc main_arg7))) (m ((c : Thread nD τ).loc main_arg8)) (Cert.Gcn.vec (m ((c : Thread nD τ).loc main_arg9))) (m ((c : Thread nD τ).loc main_arg10))
        (Cert.Gcn.vec (m ((c : Thread nD τ).loc main_arg11)) (0 : Fin 1)) (i 0) := by
  rw [reshaped_v91 m ρ c, column m ρ c]
  funext i
  obtain ⟨p, rfl⟩ : ∃ p : Fin 100000, i = ix1 p := ⟨i 0, eq_ix1 i⟩
  exact Cert.Gcn.col_shapeCast _ _ p

end Cert.KernelIdeal.Whole

end
-- ==== Proof.RefValue.lean ====
/-
  The reference program computes the network's formula.

  The reference is one straight line of host operations. Read back, its result is a single long term of the twelve
  arguments; with the graph's pieces named (`Cert.Graph`) that term is visibly four rounds of "contract with the
  weights, aggregate over the graph, add the bias, rectify" followed by the read-out with the logistic function spelt
  out as `1 / (1 + e^(−s))` (`hostNet`, `res_eq`: the two terms are the same text once the names are unfolded).
  On the extended reals each host contraction with its bias and rectifier is the layer formula of `Cert.Gcn` at every
  entry, so the whole term is `Cert.Gcn.net` of the arguments with `Cert.Graph.agg` as the aggregation (`hostNet_eq`).
-/
import proofs.«138871_j38113539785257_1_alg».proof.Proof.RefRun
import proofs.«138871_j38113539785257_1_alg».proof.Proof.Graph
import proofs.«138871_j38113539785257_1_alg».proof.Proof.Layers

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Graph

section AnyInstance

variable {F : FTy → Type} [FloatOps F]

/-- The reference's result as a term of its arguments, the graph's pieces named. -/
def hostNet (ei : IVec S2x3200000 32) (x0 : FVec F S100000x48 .f32) (x2 : FVec F S48x16 .f32) (x3 : FVec F S16 .f32)
    (x4 : FVec F S16x16 .f32) (x5 : FVec F S16 .f32) (x6 : FVec F S16x16 .f32) (x7 : FVec F S16 .f32)
    (x8 : FVec F S16x16 .f32) (x9 : FVec F S16 .f32) (x10 : FVec F S16x1 .f32) (x11 : FVec F S1 .f32) : FVec F S100000 .f32 :=
  Host.divf (broadcastInDim S100000 ![] bcast_S_S100000 (constant S_ .f32 0x3F800000#32)) (addf (broadcastInDim S100000 ![] bcast_S_S100000 (constant S_ .f32 0x3F800000#32)) (Host.exp (Host.negf (shapeCast _ (addf (Host.dotGeneral dot_S100000x16_S16x1_S100000x1_1_0_0_1_n_n none (addf (agg (F := F) ei (Host.dotGeneral dot_S100000x16_S16x16_S100000x16_1_0_0_1_n_n none (maximumf (addf (agg (F := F) ei (Host.dotGeneral dot_S100000x16_S16x16_S100000x16_1_0_0_1_n_n none (maximumf (addf (agg (F := F) ei (Host.dotGeneral dot_S100000x16_S16x16_S100000x16_1_0_0_1_n_n none (maximumf (addf (agg (F := F) ei (Host.dotGeneral dot_S100000x48_S48x16_S100000x16_1_0_0_1_n_n none x0 x2)) (broadcastInDim S100000x16 ![0, 1] bcast_S1x16_S100000x16_0_1 (broadcastInDim S1x16 ![1] bcast_S16_S1x16_1 x3))) (broadcastInDim S100000x16 ![] bcast_S_S100000x16 (constant S_ .f32 0x00000000#32))) x4)) (broadcastInDim S100000x16 ![0, 1] bcast_S1x16_S100000x16_0_1 (broadcastInDim S1x16 ![1] bcast_S16_S1x16_1 x5))) (broadcastInDim S100000x16 ![] bcast_S_S100000x16 (constant S_ .f32 0x00000000#32))) x6)) (broadcastInDim S100000x16 ![0, 1] bcast_S1x16_S100000x16_0_1 (broadcastInDim S1x16 ![1] bcast_S16_S1x16_1 x7))) (broadcastInDim S100000x16 ![] bcast_S_S100000x16 (constant S_ .f32 0x00000000#32))) x8)) (broadcastInDim S100000x16 ![0, 1] bcast_S1x16_S100000x16_0_1 (broadcastInDim S1x16 ![1] bcast_S16_S1x16_1 x9))) x10) (broadcastInDim S100000x1 ![0, 1] bcast_S1x1_S100000x1_0_1 (broadcastInDim S1x1 ![1] bcast_S1_S1x1_1 x11))) shapeCasts_S100000x1_S100000))))

set_option maxHeartbeats 4000000 in
/-- The run's result term IS `hostNet` of the launch contents of the arguments. -/
theorem res_eq (m : (ℓ : Loc nD τ sig) → Buf (Elt F) ℓ) (c : Dev nD) :
    Cert.ReferenceIdeal.ValueP.res_main_v189 (F := F) m c
      = hostNet (F := F) (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.ValueP.res_main_v189 hostNet agg aggWith nrm1 dinv deg wrap srcCat dstCat
  rfl

end AnyInstance

/-- On the extended reals the reference's term is the network's formula, node by node. -/
theorem hostNet_eq (ei : IVec S2x3200000 32) (x0 : FVec Ideal S100000x48 .f32) (x2 : FVec Ideal S48x16 .f32)
    (x3 : FVec Ideal S16 .f32) (x4 : FVec Ideal S16x16 .f32) (x5 : FVec Ideal S16 .f32) (x6 : FVec Ideal S16x16 .f32)
    (x7 : FVec Ideal S16 .f32) (x8 : FVec Ideal S16x16 .f32) (x9 : FVec Ideal S16 .f32) (x10 : FVec Ideal S16x1 .f32)
    (x11 : FVec Ideal S1 .f32) :
    hostNet (F := Ideal) ei x0 x2 x3 x4 x5 x6 x7 x8 x9 x10 x11
      = fun i => Cert.Gcn.net (agg (F := Ideal) ei) x0 x2 (fun k => x3 (ix1 k)) x4 (fun k => x5 (ix1 k)) x6
          (fun k => x7 (ix1 k)) x8 (fun k => x9 (ix1 k)) x10 (x11 (ix1 0)) (i 0) := by
  have l1 : Host.dotGeneral dot_S100000x48_S48x16_S100000x16_1_0_0_1_n_n none x0 x2
      = Cert.Gcn.lin (M := 100000) (K := 48) (N := 16) x0 x2 := by
    funext j
    obtain ⟨p, q, rfl⟩ : ∃ (p : Fin 100000) (q : Fin 16), j = ix2 p q := ⟨j 0, j 1, eq_ix2 j⟩
    exact Cert.Gcn.host_lin 100000 48 16 x0 x2 p q
  have lh : ∀ (A : FVec Ideal S100000x16 .f32) (b : FVec Ideal S16 .f32) (W : FVec Ideal S16x16 .f32),
      Host.dotGeneral dot_S100000x16_S16x16_S100000x16_1_0_0_1_n_n none
          (maximumf (addf A (broadcastInDim S100000x16 ![0, 1] bcast_S1x16_S100000x16_0_1 (broadcastInDim S1x16 ![1] bcast_S16_S1x16_1 b)))
            (broadcastInDim S100000x16 ![] bcast_S_S100000x16 (constant S_ .f32 0x00000000#32))) W
        = Cert.Gcn.hid (M := 100000) (K := 16) (N := 16) A (fun k => b (ix1 k)) W := by
    intro A b W
    funext j
    obtain ⟨p, q, rfl⟩ : ∃ (p : Fin 100000) (q : Fin 16), j = ix2 p q := ⟨j 0, j 1, eq_ix2 j⟩
    exact Cert.Gcn.host_hid 100000 16 16 A b W _ _ _ p q
  funext i
  obtain ⟨p, rfl⟩ : ∃ p : Fin 100000, i = ix1 p := ⟨i 0, eq_ix1 i⟩
  unfold hostNet
  rw [l1, lh, lh, lh]
  exact Cert.Gcn.host_out 100000 16 _ x9 x10 x11 _ _ _ _ _ _ p

end Cert.ReferenceIdeal.RefValue

end
-- ==== Proof.lean ====
/-
  A four-layer graph convolution network, tiled, against the same network written with plain array operations.

  Both programs compute, for 100000 nodes with 48 input features and a graph of 3200000 edges (every node also linked to
  itself), four rounds of "multiply the node features by a weight matrix, then replace each node's row by the weighted
  sum of its in-neighbours' rows", with a bias and a rectifier between rounds, and at the end one number per node:
  the logistic function of a last linear map. The weight of a message is the product of `degree^(-1/2)` at its two ends.

  The programs differ only in who does the dense half of each round. The reference contracts the whole
  `100000 × k` array with the weights on the host, adds the bias and rectifies afterwards. The kernel program runs five
  kernels that walk the rows in ten blocks of 10000, and folds the bias and rectifier of round `n` into the kernel of
  round `n + 1`, in front of that round's matrix product (with the factors passed through a narrower float format,
  which changes nothing on the extended reals). A row of a dense step depends on the same row of its input only, so
  the ten blocks of a kernel are the restrictions of one whole-array function and fill the result array (modules
  `First`, `Hidden1`–`Hidden3`, `ReadOut`); the graph half — gather rows at the sources, scale, sum at the
  destinations — is the same list of host operations in both programs and is never opened (`Graph`). Reading the
  kernel program's memory through its thirteen stretches (`KernelRun`, `Keep`, `Fold`) and the reference's one line of
  host operations (`RefRun`, `RefValue`) gives the same function `Cert.Gcn.net` of the twelve arguments on both sides.
  No law of arithmetic beyond the definitions of the operations is used: each side's sums have the same terms in the
  same grouping, so the precondition (finite inputs) is not needed for the values, and the result is equal on every
  extended real input, infinities included.

  The three frame claims are the generated frames (the reference's is its run with the result forgotten); the
  idealized kernel program is the kernel program's own text read on the extended reals, so there is nothing to
  preserve.
-/
import proofs.«138871_j38113539785257_1_alg».proof.Defs
import proofs.«138871_j38113539785257_1_alg».proof.Proof.Gen.Kernel
import proofs.«138871_j38113539785257_1_alg».proof.Proof.Gen.Kernel.Skeleton
import proofs.«138871_j38113539785257_1_alg».proof.Proof.Gen.Kernel.Launch
import proofs.«138871_j38113539785257_1_alg».proof.Proof.Gen.Kernel.Points
import proofs.«138871_j38113539785257_1_alg».proof.Proof.Gen.Kernel.Frame
import proofs.«138871_j38113539785257_1_alg».proof.Proof.Gen.KernelIdeal
import proofs.«138871_j38113539785257_1_alg».proof.Proof.Gen.KernelIdeal.Skeleton
import proofs.«138871_j38113539785257_1_alg».proof.Proof.Gen.KernelIdeal.Launch
import proofs.«138871_j38113539785257_1_alg».proof.Proof.Gen.KernelIdeal.Points
import proofs.«138871_j38113539785257_1_alg».proof.Proof.Gen.KernelIdeal.Frame
import proofs.«138871_j38113539785257_1_alg».proof.Proof.Gen.ReferenceIdeal
import proofs.«138871_j38113539785257_1_alg».proof.Proof.Gen.Pre_finite_inputs
import proofs.«138871_j38113539785257_1_alg».proof.Proof.KernelRun
import proofs.«138871_j38113539785257_1_alg».proof.Proof.Fold
import proofs.«138871_j38113539785257_1_alg».proof.Proof.RefRun
import proofs.«138871_j38113539785257_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network's formula of the (agreeing) arguments in their result buffers. -/
theorem algebraic : Cert.algebraic_KernelIdeal_ReferenceIdeal := by
  intro m ρ m' ρ' _ hagree
  refine ⟨fun c i => Cert.Gcn.net (Cert.Graph.agg (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (Cert.Gcn.vec (m ((c.tc : Thread Cert.KernelIdeal.nD Cert.KernelIdeal.τ).loc Cert.KernelIdeal.main_arg3))) (m ((c.tc : Thread Cert.KernelIdeal.nD Cert.KernelIdeal.τ).loc Cert.KernelIdeal.main_arg4))
      (Cert.Gcn.vec (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (Cert.Gcn.vec (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (Cert.Gcn.vec (m ((c.tc : Thread Cert.KernelIdeal.nD Cert.KernelIdeal.τ).loc Cert.KernelIdeal.main_arg9))) (m ((c.tc : Thread Cert.KernelIdeal.nD Cert.KernelIdeal.τ).loc Cert.KernelIdeal.main_arg10))
      (Cert.Gcn.vec (m ((c.tc : Thread Cert.KernelIdeal.nD Cert.KernelIdeal.τ).loc Cert.KernelIdeal.main_arg11)) (0 : Fin 1)) (i 0), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11⟩ := hagree c
    rw [Cert.ReferenceIdeal.RefValue.res_eq, h0, h1, h2, h3, h4, h5, h6, h7, h8, h9, h10, h11,
      Cert.ReferenceIdeal.RefValue.hostNet_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
